-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x24 : S_.BroadcastsInDim S64x24 (![] : Fin 0 → Fin S64x24.rank)
  reducesTo_S64x24_S_d0_1 : S64x24.ReducesTo [0, 1] S_
  bcast_S_S24 : S_.BroadcastsInDim S24 (![] : Fin 0 → Fin S24.rank)
  reducesTo_S24_S_d0 : S24.ReducesTo [0] S_
  bcast_S_S323x256 : S_.BroadcastsInDim S323x256 (![] : Fin 0 → Fin S323x256.rank)
  reducesTo_S323x256_S_d0_1 : S323x256.ReducesTo [0, 1] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S256x256 .f32) (main_arg12 : FVec F S256 .f32) (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg13
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg14 main_v63 main_v67

def fn_part2 {F : FTy → Type} [FloatOps F] (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S64x24 .f32 := Host.absf main_arg7
  let main_cst_12 : FVec F S_ .f32 := constant S_ .f32 0x7F800000#32
  let main_v35 : FVec F S64x24 .f32 := broadcastInDim S64x24 ![] bcast_S_S64x24 main_cst_12
  let main_v36 : IVec S64x24 1 := cmpf .olt main_v34 main_v35
  let main_c_13 : IVec S_ 1 := constantI S_ 1 1#1
  let main_v37 : IVec S_ 1 := (fun x v => Host.reduce IntOp.andi x v reducesTo_S64x24_S_d0_1 h_S_) main_v36 main_c_13
  let main_v38 : IVec S_ 1 := andi main_v33 main_v37
  let main_v39 : FVec F S24 .f32 := Host.absf main_arg8
  let main_cst_14 : FVec F S_ .f32 := constant S_ .f32 0x7F800000#32
  let main_v40 : FVec F S24 .f32 := broadcastInDim S24 ![] bcast_S_S24 main_cst_14
  let main_v41 : IVec S24 1 := cmpf .olt main_v39 main_v40
  let main_c_15 : IVec S_ 1 := constantI S_ 1 1#1
  let main_v42 : IVec S_ 1 := (fun x v => Host.reduce IntOp.andi x v reducesTo_S24_S_d0 h_S_) main_v41 main_c_15
  let main_v43 : IVec S_ 1 := andi main_v38 main_v42
  let main_v44 : FVec F S323x256 .f32 := Host.absf main_arg9
  let main_cst_16 : FVec F S_ .f32 := constant S_ .f32 0x7F800000#32
  let main_v45 : FVec F S323x256 .f32 := broadcastInDim S323x256 ![] bcast_S_S323x256 main_cst_16
  let main_v46 : IVec S323x256 1 := cmpf .olt main_v44 main_v45
  let main_c_17 : IVec S_ 1 := constantI S_ 1 1#1
  let main_v47 : IVec S_ 1 := (fun x v => Host.reduce IntOp.andi x v reducesTo_S323x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_v48 main_v49 main_v50

def fn_part1 {F : FTy → Type} [FloatOps F] (main_arg4 : FVec F S128 .f32) (main_arg5 : FVec F S128x64 .f32) (main_arg6 : FVec F S64 .f32) (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x256 .f32) (main_arg1 : FVec F S256x256 .f32) (main_arg2 : FVec F S256 .f32) (main_arg3 : FVec F S256x128 .f32) (main_arg4 : FVec F S128 .f32) (main_arg5 : FVec F S128x64 .f32) (main_arg6 : FVec F S64 .f32) (main_arg7 : FVec F S64x24 .f32) (main_arg8 : FVec F S24 .f32) (main_arg9 : FVec F S323x256 .f32) (main_arg10 : FVec F S256 .f32) (main_arg11 : FVec F S256x256 .f32) (main_arg12 : FVec F S256 .f32) (main_arg13 : FVec F S256x256 .f32) (main_arg14 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S50000x24 : Shape := ⟨2, ![50000, 24]⟩
abbrev S400000x256 : Shape := ⟨2, ![400000, 256]⟩
abbrev S400x256 : Shape := ⟨2, ![400, 256]⟩
abbrev S400x24 : Shape := ⟨2, ![400, 24]⟩
abbrev S3200x256 : Shape := ⟨2, ![3200, 256]⟩
abbrev S1x256 : Shape := ⟨2, ![1, 256]⟩
abbrev S400x128 : Shape := ⟨2, ![400, 128]⟩
abbrev S1x128 : Shape := ⟨2, ![1, 128]⟩
abbrev S400x64 : Shape := ⟨2, ![400, 64]⟩
abbrev S1x64 : Shape := ⟨2, ![1, 64]⟩
abbrev S1x24 : Shape := ⟨2, ![1, 24]⟩
abbrev S400x3 : Shape := ⟨2, ![400, 3]⟩
abbrev S400x1x3 : Shape := ⟨3, ![400, 1, 3]⟩
abbrev S400x8x3 : Shape := ⟨3, ![400, 8, 3]⟩
abbrev S400x1x256 : Shape := ⟨3, ![400, 1, 256]⟩
abbrev S400x8x256 : Shape := ⟨3, ![400, 8, 256]⟩
abbrev S400x1x64 : Shape := ⟨3, ![400, 1, 64]⟩
abbrev S400x8x64 : Shape := ⟨3, ![400, 8, 64]⟩
abbrev S400x8x323 : Shape := ⟨3, ![400, 8, 323]⟩
abbrev S3200x323 : Shape := ⟨2, ![3200, 323]⟩
abbrev S400000x3 : Shape := ⟨2, ![400000, 3]⟩
abbrev S50000 : Shape := ⟨1, ![50000]⟩
abbrev S50000x8 : Shape := ⟨2, ![50000, 8]⟩
abbrev S400000 : Shape := ⟨1, ![400000]⟩

abbrev nBuf : Space → Nat
  | .hbm => 21
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S323x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S50000x24, .f32⟩
  | .hbm, ⟨16, _⟩ => ⟨S400000x256, .f32⟩
  | .hbm, ⟨17, _⟩ => ⟨S400000x3, .f32⟩
  | .hbm, ⟨18, _⟩ => ⟨S50000, .i32⟩
  | .hbm, ⟨19, _⟩ => ⟨S50000x8, .i32⟩
  | .hbm, ⟨20, _⟩ => ⟨S400000, .i32⟩
  | .local _ .vmem, ⟨0, _⟩ => ⟨S400x256, .f32⟩
  | .local _ .vmem, ⟨1, _⟩ => ⟨S400x256, .f32⟩
  | .local _ .vmem, ⟨2, _⟩ => ⟨S256x256, .f32⟩
  | .local _ .vmem, ⟨3, _⟩ => ⟨S256, .f32⟩
  | .local _ .vmem, ⟨4, _⟩ => ⟨S256x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S64x24, .f32⟩
  | .local _ .vmem, ⟨9, _⟩ => ⟨S24, .f32⟩
  | .local _ .vmem, ⟨10, _⟩ => ⟨S323x256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S256x256, .f32⟩
  | .local _ .vmem, ⟨15, _⟩ => ⟨S256, .f32⟩
  | .local _ .vmem, ⟨16, _⟩ => ⟨S400x24, .f32⟩
  | .local _ .vmem, ⟨17, _⟩ => ⟨S400x24, .f32⟩
  | .local _ .vmem, ⟨18, _⟩ => ⟨S3200x256, .f32⟩
  | .local _ .vmem, ⟨19, _⟩ => ⟨S3200x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S24 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S323x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S400x24 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S3200x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S400x256_S400x256_0_0 : ∀ a, (![0, 0] : Fin 2 → Nat) a + S400x256.size a ≤ S400x256.size a
  h_S400x256 : 0 < S400x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256_S256_0 : ∀ a, (![0] : Fin 1 → Nat) a + S256.size a ≤ S256.size a
  h_S256 : 0 < S256.numel
  shapeCasts_S256_S1x256 : S256.ShapeCasts S1x256
  broadcasts_S1x256_S400x256 : S1x256.Broadcasts S400x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S400x64 : S1x64.Broadcasts S400x64
  inb_S64x24_S64x24_0_0 : ∀ a, (![0, 0] : Fin 2 → Nat) a + S64x24.size a ≤ S64x24.size a
  h_S64x24 : 0 < S64x24.numel
  inb_S24_S24_0 : ∀ a, (![0] : Fin 1 → Nat) a + S24.size a ≤ S24.size a
  h_S24 : 0 < S24.numel
  shapeCasts_S24_S1x24 : S24.ShapeCasts S1x24
  broadcasts_S1x24_S400x24 : S1x24.Broadcasts S400x24
  slices_S400x24_o0_0_S400x3 : S400x24.Slices ![0, 0] S400x3
  shapeCasts_S400x3_S400x1x3 : S400x3.ShapeCasts S400x1x3
  slices_S400x24_o0_3_S400x3 : S400x24.Slices ![0, 3] S400x3
  slices_S400x24_o0_6_S400x3 : S400x24.Slices ![0, 6] S400x3
  slices_S400x24_o0_9_S400x3 : S400x24.Slices ![0, 9] S400x3
  slices_S400x24_o0_12_S400x3 : S400x24.Slices ![0, 12] S400x3
  slices_S400x24_o0_15_S400x3 : S400x24.Slices ![0, 15] S400x3
  slices_S400x24_o0_18_S400x3 : S400x24.Slices ![0, 18] S400x3
  slices_S400x24_o0_21_S400x3 : S400x24.Slices ![0, 21] S400x3
  concatenates_S400x1x3_S400x1x3_S400x1x3_S400x1x3_S400x1x3_S400x1x3_S400x1x3_S400x1x3_S400x8x3_d1 : Shape.Concatenates [S400x1x3, S400x1x3, S400x1x3, S400x1x3, S400x1x3, S400x1x3, S400x1x3, S400x1x3] S400x8x3 1
  shapeCasts_S400x256_S400x1x256 : S400x256.ShapeCasts S400x1x256
  shapeCasts_S400x1x256_S400x1x256 : S400x1x256.ShapeCasts S400x1x256
  broadcasts_S400x1x256_S400x8x256 : S400x1x256.Broadcasts S400x8x256
  shapeCasts_S400x64_S400x1x64 : S400x64.ShapeCasts S400x1x64
  shapeCasts_S400x1x64_S400x1x64 : S400x1x64.ShapeCasts S400x1x64
  broadcasts_S400x1x64_S400x8x64 : S400x1x64.Broadcasts S400x8x64
  concatenates_S400x8x256_S400x8x64_S400x8x3_S400x8x323_d2 : Shape.Concatenates [S400x8x256, S400x8x64, S400x8x3] S400x8x323 2
  shapeCasts_S400x8x323_S3200x323 : S400x8x323.ShapeCasts S3200x323
  inb_S323x256_S323x256_0_0 : ∀ a, (![0, 0] : Fin 2 → Nat) a + S323x256.size a ≤ S323x256.size a
  h_S323x256 : 0 < S323x256.numel
  broadcasts_S1x256_S3200x256 : S1x256.Broadcasts S3200x256
  inb_S400x24_S400x24_0_0 : ∀ a, (![0, 0] : Fin 2 → Nat) a + S400x24.size a ≤ S400x24.size a
  h_S400x24 : 0 < S400x24.numel
  inb_S3200x256_S3200x256_0_0 : ∀ a, (![0, 0] : Fin 2 → Nat) a + S3200x256.size a ≤ S3200x256.size a
  h_S3200x256 : 0 < S3200x256.numel
  shapeCasts_S50000x24_S400000x3 : S50000x24.ShapeCasts S400000x3
  bcast_S50000_S50000x8_0 : S50000.BroadcastsInDim S50000x8 (![0] : Fin 1 → Fin S50000x8.rank)
  shapeCasts_S50000x8_S400000 : S50000x8.ShapeCasts S400000
  dot_S400x256_S256x256_S400x256_1_0_0_1_n_n_wf : DotDims.WF S400x256 S256x256 S400x256 [1] [0] [0] [1] [] []
  dot_S400x256_S256x128_S400x128_1_0_0_1_n_n_wf : DotDims.WF S400x256 S256x128 S400x128 [1] [0] [0] [1] [] []
  dot_S400x128_S128x64_S400x64_1_0_0_1_n_n_wf : DotDims.WF S400x128 S128x64 S400x64 [1] [0] [0] [1] [] []
  dot_S400x64_S64x24_S400x24_1_0_0_1_n_n_wf : DotDims.WF S400x64 S64x24 S400x24 [1] [0] [0] [1] [] []
  dot_S3200x323_S323x256_S3200x256_1_0_0_1_n_n_wf : DotDims.WF S3200x323 S323x256 S3200x256 [1] [0] [0] [1] [] []
  dot_S3200x256_S256x256_S3200x256_1_0_0_1_n_n_wf : DotDims.WF S3200x256 S256x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x256.size a ≤ S50000x256.size a
  hwx0_0 : ∀ i : grid0.Coords, EltTy.bits .f32 = 32 ∨ (Rect.block (s := S50000x256) S400x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x24.size a ≤ S64x24.size a
  hwx0_7 : ∀ i : grid0.Coords, EltTy.bits .f32 = 32 ∨ (Rect.block (s := S64x24) S64x24.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S24.size a ≤ S24.size a
  hwx0_8 : ∀ i : grid0.Coords, EltTy.bits .f32 = 32 ∨ (Rect.block (s := S24) S24.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S323x256.size a ≤ S323x256.size a
  hwx0_9 : ∀ i : grid0.Coords, EltTy.bits .f32 = 32 ∨ (Rect.block (s := S323x256) S323x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .f32 = 32 ∨ (Rect.block (s := S256x256) S256x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S400x24.size a ≤ S50000x24.size a
  hwx0_15 : ∀ i : grid0.Coords, EltTy.bits .f32 = 32 ∨ (Rect.block (s := S50000x24) S400x24.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S3200x256.size a ≤ S400000x256.size a
  hwx0_16 : ∀ i : grid0.Coords, EltTy.bits .f32 = 32 ∨ (Rect.block (s := S400000x256) S3200x256.size (cc0_transform_16 i) (hinb0_16 i)).WholeWords (EltTy.packing .f32)

variable [Facts₀]

def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x64_S64x24_S400x24_1_0_0_1_n_n : DotDims S400x64 S64x24 S400x24 where
  lhsContracting := [1]
  rhsContracting := [0]
  lhsNonContracting := [0]
  rhsNonContracting := [1]
  lhsBatch := []
  rhsBatch := []
  wf := dot_S400x64_S64x24_S400x24_1_0_0_1_n_n_wf
def dot_S3200x323_S323x256_S3200x256_1_0_0_1_n_n : DotDims S3200x323 S323x256 S3200x256 where
  lhsContracting := [1]
  rhsContracting := [0]
  lhsNonContracting := [0]
  rhsNonContracting := [1]
  lhsBatch := []
  rhsBatch := []
  wf := dot_S3200x323_S323x256_S3200x256_1_0_0_1_n_n_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf

abbrev win0_0 : Pipeline.Window sig grid0 :=
  Pipeline.Window.ofSpec (Memref.whole main_arg0) S400x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x24.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S24.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S323x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S400x24.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S3200x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x24 : Shape := ⟨2, ![64, 24]⟩
abbrev S24 : Shape := ⟨1, ![24]⟩
abbrev S323x256 : Shape := ⟨2, ![323, 256]⟩
abbrev S1x256 : Shape := ⟨2, ![1, 256]⟩
abbrev S_ : Shape := ⟨0, ![]⟩
abbrev S50000x128 : Shape := ⟨2, ![50000, 128]⟩
abbrev S1x128 : Shape := ⟨2, ![1, 128]⟩
abbrev S50000x64 : Shape := ⟨2, ![50000, 64]⟩
abbrev S1x64 : Shape := ⟨2, ![1, 64]⟩
abbrev S50000x24 : Shape := ⟨2, ![50000, 24]⟩
abbrev S1x24 : Shape := ⟨2, ![1, 24]⟩
abbrev S400000x3 : Shape := ⟨2, ![400000, 3]⟩
abbrev S50000 : Shape := ⟨1, ![50000]⟩
abbrev S50000x8 : Shape := ⟨2, ![50000, 8]⟩
abbrev S400000 : Shape := ⟨1, ![400000]⟩
abbrev S400000x1 : Shape := ⟨2, ![400000, 1]⟩
abbrev S1 : Shape := ⟨1, ![1]⟩
abbrev S1x1 : Shape := ⟨2, ![1, 1]⟩
abbrev S400000x64 : Shape := ⟨2, ![400000, 64]⟩
abbrev S400000x256 : Shape := ⟨2, ![400000, 256]⟩
abbrev S400000x323 : Shape := ⟨2, ![400000, 323]⟩

abbrev nBuf : Space → Nat
  | .hbm => 112
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x24, .f32⟩
  | .hbm, ⟨8, _⟩ => ⟨S24, .f32⟩
  | .hbm, ⟨9, _⟩ => ⟨S323x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S50000x256, .f32⟩
  | .hbm, ⟨16, _⟩ => ⟨S1x256, .f32⟩
  | .hbm, ⟨17, _⟩ => ⟨S50000x256, .f32⟩
  | .hbm, ⟨18, _⟩ => ⟨S50000x256, .f32⟩
  | .hbm, ⟨19, _⟩ => ⟨S_, .f32⟩
  | .hbm, ⟨20, _⟩ => ⟨S50000x256, .f32⟩
  | .hbm, ⟨21, _⟩ => ⟨S50000x256, .f32⟩
  | .hbm, ⟨22, _⟩ => ⟨S50000x128, .f32⟩
  | .hbm, ⟨23, _⟩ => ⟨S1x128, .f32⟩
  | .hbm, ⟨24, _⟩ => ⟨S50000x128, .f32⟩
  | .hbm, ⟨25, _⟩ => ⟨S50000x128, .f32⟩
  | .hbm, ⟨26, _⟩ => ⟨S_, .f32⟩
  | .hbm, ⟨27, _⟩ => ⟨S50000x128, .f32⟩
  | .hbm, ⟨28, _⟩ => ⟨S50000x128, .f32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S50000x24, .f32⟩
  | .hbm, ⟨37, _⟩ => ⟨S1x24, .f32⟩
  | .hbm, ⟨38, _⟩ => ⟨S50000x24, .f32⟩
  | .hbm, ⟨39, _⟩ => ⟨S50000x24, .f32⟩
  | .hbm, ⟨40, _⟩ => ⟨S400000x3, .f32⟩
  | .hbm, ⟨41, _⟩ => ⟨S50000, .i32⟩
  | .hbm, ⟨42, _⟩ => ⟨S50000x8, .i32⟩
  | .hbm, ⟨43, _⟩ => ⟨S400000, .i32⟩
  | .hbm, ⟨44, _⟩ => ⟨S_, .i32⟩
  | .hbm, ⟨45, _⟩ => ⟨S400000, .i32⟩
  | .hbm, ⟨46, _⟩ => ⟨S400000, .i1⟩
  | .hbm, ⟨47, _⟩ => ⟨S_, .i32⟩
  | .hbm, ⟨48, _⟩ => ⟨S400000, .i32⟩
  | .hbm, ⟨49, _⟩ => ⟨S400000, .i32⟩
  | .hbm, ⟨50, _⟩ => ⟨S400000, .i32⟩
  | .hbm, ⟨51, _⟩ => ⟨S400000x1, .i32⟩
  | .hbm, ⟨52, _⟩ => ⟨S1, .i32⟩
  | .hbm, ⟨53, _⟩ => ⟨S_, .i32⟩
  | .hbm, ⟨54, _⟩ => ⟨S400000x1, .i32⟩
  | .hbm, ⟨55, _⟩ => ⟨S400000x1, .i1⟩
  | .hbm, ⟨56, _⟩ => ⟨S1x1, .i32⟩
  | .hbm, ⟨57, _⟩ => ⟨S400000x1, .i32⟩
  | .hbm, ⟨58, _⟩ => ⟨S400000x1, .i1⟩
  | .hbm, ⟨59, _⟩ => ⟨S400000x1, .i1⟩
  | .hbm, ⟨60, _⟩ => ⟨S_, .i1⟩
  | .hbm, ⟨61, _⟩ => ⟨S400000, .i1⟩
  | .hbm, ⟨62, _⟩ => ⟨S400000x64, .f32⟩
  | .hbm, ⟨63, _⟩ => ⟨S400000x64, .i1⟩
  | .hbm, ⟨64, _⟩ => ⟨S_, .f32⟩
  | .hbm, ⟨65, _⟩ => ⟨S400000x64, .f32⟩
  | .hbm, ⟨66, _⟩ => ⟨S400000x64, .f32⟩
  | .hbm, ⟨67, _⟩ => ⟨S_, .i32⟩
  | .hbm, ⟨68, _⟩ => ⟨S400000, .i32⟩
  | .hbm, ⟨69, _⟩ => ⟨S400000, .i1⟩
  | .hbm, ⟨70, _⟩ => ⟨S_, .i32⟩
  | .hbm, ⟨71, _⟩ => ⟨S400000, .i32⟩
  | .hbm, ⟨72, _⟩ => ⟨S400000, .i32⟩
  | .hbm, ⟨73, _⟩ => ⟨S400000, .i32⟩
  | .hbm, ⟨74, _⟩ => ⟨S400000x1, .i32⟩
  | .hbm, ⟨75, _⟩ => ⟨S1, .i32⟩
  | .hbm, ⟨76, _⟩ => ⟨S_, .i32⟩
  | .hbm, ⟨77, _⟩ => ⟨S400000x1, .i32⟩
  | .hbm, ⟨78, _⟩ => ⟨S400000x1, .i1⟩
  | .hbm, ⟨79, _⟩ => ⟨S1x1, .i32⟩
  | .hbm, ⟨80, _⟩ => ⟨S400000x1, .i32⟩
  | .hbm, ⟨81, _⟩ => ⟨S400000x1, .i1⟩
  | .hbm, ⟨82, _⟩ => ⟨S400000x1, .i1⟩
  | .hbm, ⟨83, _⟩ => ⟨S_, .i1⟩
  | .hbm, ⟨84, _⟩ => ⟨S400000, .i1⟩
  | .hbm, ⟨85, _⟩ => ⟨S400000x256, .f32⟩
  | .hbm, ⟨86, _⟩ => ⟨S400000x256, .i1⟩
  | .hbm, ⟨87, _⟩ => ⟨S_, .f32⟩
  | .hbm, ⟨88, _⟩ => ⟨S400000x256, .f32⟩
  | .hbm, ⟨89, _⟩ => ⟨S400000x256, .f32⟩
  | .hbm, ⟨90, _⟩ => ⟨S400000x323, .f32⟩
  | .hbm, ⟨91, _⟩ => ⟨S400000x256, .f32⟩
  | .hbm, ⟨92, _⟩ => ⟨S1x256, .f32⟩
  | .hbm, ⟨93, _⟩ => ⟨S400000x256, .f32⟩
  | .hbm, ⟨94, _⟩ => ⟨S400000x256, .f32⟩
  | .hbm, ⟨95, _⟩ => ⟨S_, .f32⟩
  | .hbm, ⟨96, _⟩ => ⟨S400000x256, .f32⟩
  | .hbm, ⟨97, _⟩ => ⟨S400000x256, .f32⟩
  | .hbm, ⟨98, _⟩ => ⟨S400000x256, .f32⟩
  | .hbm, ⟨99, _⟩ => ⟨S1x256, .f32⟩
  | .hbm, ⟨100, _⟩ => ⟨S400000x256, .f32⟩
  | .hbm, ⟨101, _⟩ => ⟨S400000x256, .f32⟩
  | .hbm, ⟨102, _⟩ => ⟨S_, .f32⟩
  | .hbm, ⟨103, _⟩ => ⟨S400000x256, .f32⟩
  | .hbm, ⟨104, _⟩ => ⟨S400000x256, .f32⟩
  | .hbm, ⟨105, _⟩ => ⟨S400000x256, .f32⟩
  | .hbm, ⟨106, _⟩ => ⟨S1x256, .f32⟩
  | .hbm, ⟨107, _⟩ => ⟨S400000x256, .f32⟩
  | .hbm, ⟨108, _⟩ => ⟨S400000x256, .f32⟩
  | .hbm, ⟨109, _⟩ => ⟨S_, .f32⟩
  | .hbm, ⟨110, _⟩ => ⟨S400000x256, .f32⟩
  | .hbm, ⟨111, _⟩ => ⟨S400000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call2_cst : Ref sig .tc := ⟨.hbm, 33, rfl⟩
abbrev main_call2_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_c : Ref sig .tc := ⟨.hbm, 44, rfl⟩
abbrev main_call3_v0 : Ref sig .tc := ⟨.hbm, 45, rfl⟩
abbrev main_call3_v1 : Ref sig .tc := ⟨.hbm, 46, rfl⟩
abbrev main_call3_c_0 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_call3_v5 : Ref sig .tc := ⟨.hbm, 51, rfl⟩
abbrev main_call3_c_1 : Ref sig .tc := ⟨.hbm, 52, rfl⟩
abbrev main_call3_c_2 : Ref sig .tc := ⟨.hbm, 53, rfl⟩
abbrev main_call3_v6 : Ref sig .tc := ⟨.hbm, 54, rfl⟩
abbrev main_call3_v7 : Ref sig .tc := ⟨.hbm, 55, rfl⟩
abbrev main_call3_v8 : Ref sig .tc := ⟨.hbm, 56, rfl⟩
abbrev main_call3_v9 : Ref sig .tc := ⟨.hbm, 57, rfl⟩
abbrev main_call3_v10 : Ref sig .tc := ⟨.hbm, 58, rfl⟩
abbrev main_call3_v11 : Ref sig .tc := ⟨.hbm, 59, rfl⟩
abbrev main_call3_c_3 : Ref sig .tc := ⟨.hbm, 60, rfl⟩
abbrev main_call3_v12 : Ref sig .tc := ⟨.hbm, 61, rfl⟩
abbrev main_call3_v13 : Ref sig .tc := ⟨.hbm, 62, rfl⟩
abbrev main_call3_v14 : Ref sig .tc := ⟨.hbm, 63, rfl⟩
abbrev main_call3_cst : Ref sig .tc := ⟨.hbm, 64, rfl⟩
abbrev main_call3_v15 : Ref sig .tc := ⟨.hbm, 65, rfl⟩
abbrev main_v23 : Ref sig .tc := ⟨.hbm, 66, rfl⟩
abbrev main_call4_c : Ref sig .tc := ⟨.hbm, 67, rfl⟩
abbrev main_call4_v0 : Ref sig .tc := ⟨.hbm, 68, rfl⟩
abbrev main_call4_v1 : Ref sig .tc := ⟨.hbm, 69, rfl⟩
abbrev main_call4_c_0 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_c_1 : Ref sig .tc := ⟨.hbm, 75, rfl⟩
abbrev main_call4_c_2 : Ref sig .tc := ⟨.hbm, 76, rfl⟩
abbrev main_call4_v6 : Ref sig .tc := ⟨.hbm, 77, rfl⟩
abbrev main_call4_v7 : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_v11 : Ref sig .tc := ⟨.hbm, 82, rfl⟩
abbrev main_call4_c_3 : Ref sig .tc := ⟨.hbm, 83, rfl⟩
abbrev main_call4_v12 : Ref sig .tc := ⟨.hbm, 84, rfl⟩
abbrev main_call4_v13 : Ref sig .tc := ⟨.hbm, 85, rfl⟩
abbrev main_call4_v14 : Ref sig .tc := ⟨.hbm, 86, rfl⟩
abbrev main_call4_cst : Ref sig .tc := ⟨.hbm, 87, rfl⟩
abbrev main_call4_v15 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_call5_cst : Ref sig .tc := ⟨.hbm, 95, rfl⟩
abbrev main_call5_v0 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_call6_cst : Ref sig .tc := ⟨.hbm, 102, rfl⟩
abbrev main_call6_v0 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_call7_cst : Ref sig .tc := ⟨.hbm, 109, rfl⟩
abbrev main_call7_v0 : Ref sig .tc := ⟨.hbm, 110, rfl⟩
abbrev main_v40 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S24_S1x24_1 : S24.BroadcastsInDim S1x24 (![1] : Fin 1 → Fin S1x24.rank)
  bcast_S1x24_S50000x24_0_1 : S1x24.BroadcastsInDim S50000x24 (![0, 1] : Fin 2 → Fin S50000x24.rank)
  shapeCasts_S50000x24_S400000x3 : S50000x24.ShapeCasts S400000x3
  bcast_S50000_S50000x8_0 : S50000.BroadcastsInDim S50000x8 (![0] : Fin 1 → Fin S50000x8.rank)
  shapeCasts_S50000x8_S400000 : S50000x8.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x64_0 : S400000.BroadcastsInDim S400000x64 (![0] : Fin 1 → Fin S400000x64.rank)
  bcast_S_S400000x64 : S_.BroadcastsInDim S400000x64 (![] : Fin 0 → Fin S400000x64.rank)
  bcast_S400000_S400000x256_0 : S400000.BroadcastsInDim S400000x256 (![0] : Fin 1 → Fin S400000x256.rank)
  bcast_S_S400000x256 : S_.BroadcastsInDim S400000x256 (![] : Fin 0 → Fin S400000x256.rank)
  concatenates_S400000x256_S400000x64_S400000x3_S400000x323_d1 : Shape.Concatenates [S400000x256, S400000x64, S400000x3] S400000x323 1
  bcast_S1x256_S400000x256_0_1 : S1x256.BroadcastsInDim S400000x256 (![0, 1] : Fin 2 → Fin S400000x256.rank)
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  dot_S50000x64_S64x24_S50000x24_1_0_0_1_n_n_wf : DotDims.WF S50000x64 S64x24 S50000x24 [1] [0] [0] [1] [] []
  gather_S50000x64_S400000x1_S400000x64_1_0_n_n_0_1_164_wf : GatherDims.WF S50000x64 S400000x1 S400000x64 [1] [0] [] [0] [] 1 ![1, 64]
  gather_S50000x256_S400000x1_S400000x256_1_0_n_n_0_1_1256_wf : GatherDims.WF S50000x256 S400000x1 S400000x256 [1] [0] [] [0] [] 1 ![1, 256]
  dot_S400000x323_S323x256_S400000x256_1_0_0_1_n_n_wf : DotDims.WF S400000x323 S323x256 S400000x256 [1] [0] [0] [1] [] []
  dot_S400000x256_S256x256_S400000x256_1_0_0_1_n_n_wf : DotDims.WF S400000x256 S256x256 S400000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x24_S50000x24_1_0_0_1_n_n : DotDims S50000x64 S64x24 S50000x24 where
  lhsContracting := [1]
  rhsContracting := [0]
  lhsNonContracting := [0]
  rhsNonContracting := [1]
  lhsBatch := []
  rhsBatch := []
  wf := dot_S50000x64_S64x24_S50000x24_1_0_0_1_n_n_wf
def gather_S50000x64_S400000x1_S400000x64_1_0_n_n_0_1_164 : GatherDims S50000x64 S400000x1 S400000x64 where
  offsetDims := [1]
  collapsedSliceDims := [0]
  operandBatchingDims := []
  startIndicesBatchingDims := []
  startIndexMap := [0]
  indexVectorDim := 1
  sliceSizes := ![1, 64]
  wf := gather_S50000x64_S400000x1_S400000x64_1_0_n_n_0_1_164_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def dot_S400000x323_S323x256_S400000x256_1_0_0_1_n_n : DotDims S400000x323 S323x256 S400000x256 where
  lhsContracting := [1]
  rhsContracting := [0]
  lhsNonContracting := [0]
  rhsNonContracting := [1]
  lhsBatch := []
  rhsBatch := []
  wf := dot_S400000x323_S323x256_S400000x256_1_0_0_1_n_n_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf

class Facts : Prop extends Facts₀ where

variable [Facts]
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Spec.lean ====
/-
  The decoder as mathematics, one node at a time.

  A node is a row x of 256 extended reals. Three affine layers, each followed by the positive part, take it to 64
  global features; one more affine layer (no positive part) gives 24 numbers read as 8 points of 3 coordinates.
  Point k of the node has the input row (x, features, the 3 coordinates of point k), 323 numbers, which three more
  affine layers with positive parts take to 256 decoded numbers. An affine layer is v ↦ (∑ j, v j · W (j, q)) + b q.

  Over all 50000 nodes the results are indexed by the point number r = 8 · node + k: the point coordinates
  [400000, 3], the decoded rows [400000, 256], and the node number of each point, r / 8.
-/
import Idealize.ShloMosaic.Lib.ValueIdx

noncomputable section

open scoped BigOperators

namespace Cert.Decoder

open Idealize.ShloMosaic Idealize.ShloMosaic.ValueIdx

/-- The zero both programs take the positive part against. -/
abbrev zero : EReal := Ideal.ofBits .f32 0x00000000#32

/-- One affine layer on a row: entry q is (∑ j, v j · W (j, q)) + b q. -/
def affine {K N : ℕ} (W : FVec Ideal ⟨2, ![K, N]⟩ .f32) (b : FVec Ideal ⟨1, ![N]⟩ .f32) (v : Fin K → EReal) :
    Fin N → EReal :=
  fun q => (∑ j : Fin K, v j * W (ix2 j q)) + b (ix1 q)

/-- The positive part of a row, entry by entry. -/
def pos {N : ℕ} (v : Fin N → EReal) : Fin N → EReal := fun q => max (v q) zero

/-- Row n of a matrix. -/
def rowOf {A B : ℕ} (X : FVec Ideal ⟨2, ![A, B]⟩ .f32) (n : Fin A) : Fin B → EReal := fun j => X (ix2 n j)

/-- The fourteen weight arrays. -/
structure Params where
  Wg0 : FVec Ideal ⟨2, ![256, 256]⟩ .f32
  bg0 : FVec Ideal ⟨1, ![256]⟩ .f32
  Wg1 : FVec Ideal ⟨2, ![256, 128]⟩ .f32
  bg1 : FVec Ideal ⟨1, ![128]⟩ .f32
  Wg2 : FVec Ideal ⟨2, ![128, 64]⟩ .f32
  bg2 : FVec Ideal ⟨1, ![64]⟩ .f32
  Wdec : FVec Ideal ⟨2, ![64, 24]⟩ .f32
  bdec : FVec Ideal ⟨1, ![24]⟩ .f32
  W0 : FVec Ideal ⟨2, ![323, 256]⟩ .f32
  b0 : FVec Ideal ⟨1, ![256]⟩ .f32
  W1 : FVec Ideal ⟨2, ![256, 256]⟩ .f32
  b1 : FVec Ideal ⟨1, ![256]⟩ .f32
  W2 : FVec Ideal ⟨2, ![256, 256]⟩ .f32
  b2 : FVec Ideal ⟨1, ![256]⟩ .f32

variable (P : Params)

/-- The first hidden row of a node. -/
def hid0 (x : Fin 256 → EReal) : Fin 256 → EReal := pos (affine P.Wg0 P.bg0 x)
/-- The second hidden row of a node. -/
def hid1 (x : Fin 256 → EReal) : Fin 128 → EReal := pos (affine P.Wg1 P.bg1 (hid0 P x))
/-- The 64 global features of a node. -/
def feats (x : Fin 256 → EReal) : Fin 64 → EReal := pos (affine P.Wg2 P.bg2 (hid1 P x))
/-- The 24 point coordinates of a node: point k's coordinate j at position 3 k + j. -/
def rel (x : Fin 256 → EReal) : Fin 24 → EReal := affine P.Wdec P.bdec (feats P x)

/-- The 323 inputs of point k of a node: the node's row, its features, the point's three coordinates. -/
def pointIn (x : Fin 256 → EReal) (k : Fin 8) : Fin 323 → EReal := fun c =>
  if h : c.val < 256 then x ⟨c.val, h⟩
  else if h2 : c.val < 320 then feats P x ⟨c.val - 256, by omega⟩
  else rel P x ⟨3 * k.val + (c.val - 320), by omega⟩

/-- The first hidden row of a point. -/
def pt0 (x : Fin 256 → EReal) (k : Fin 8) : Fin 256 → EReal := pos (affine P.W0 P.b0 (pointIn P x k))
/-- The second hidden row of a point. -/
def pt1 (x : Fin 256 → EReal) (k : Fin 8) : Fin 256 → EReal := pos (affine P.W1 P.b1 (pt0 P x k))
/-- The 256 decoded numbers of point k of a node. -/
def decoded (x : Fin 256 → EReal) (k : Fin 8) : Fin 256 → EReal := pos (affine P.W2 P.b2 (pt1 P x k))

/-- The node of point number r. -/
abbrev nodeOf (i : (⟨2, ![400000, 3]⟩ : Shape).Idx) : Fin 50000 := ⟨(i 0).val / 8, by have := idx2_lt0 i; omega⟩
/-- The node of a decoded row. -/
abbrev nodeOf' (i : (⟨2, ![400000, 256]⟩ : Shape).Idx) : Fin 50000 := ⟨(i 0).val / 8, by have := idx2_lt0 i; omega⟩

/-- All point coordinates: row r = 8 n + k holds the three coordinates of point k of node n. -/
def relPoints (X : FVec Ideal ⟨2, ![50000, 256]⟩ .f32) : FVec Ideal ⟨2, ![400000, 3]⟩ .f32 := fun i =>
  rel P (rowOf X (nodeOf i)) ⟨3 * ((i 0).val % 8) + (i 1).val, by have := idx2_lt1 i; omega⟩

/-- All decoded rows: row r = 8 n + k holds the decoded numbers of point k of node n. -/
def decodedAll (X : FVec Ideal ⟨2, ![50000, 256]⟩ .f32) : FVec Ideal ⟨2, ![400000, 256]⟩ .f32 := fun i =>
  decoded P (rowOf X (nodeOf' i)) ⟨(i 0).val % 8, Nat.mod_lt _ (by norm_num)⟩ (i 1)

/-- The node number of every point. -/
def cluster : IVec ⟨1, ![400000]⟩ 32 := fun i => BitVec.ofNat 32 ((i 0).val / 8)

end Cert.Decoder

end
-- ==== Proof.Tile.lean ====
/-
  One layer of the decoder on a tile of rows, as the matrix unit computes it, read one row at a time.

  The tile x [A, K] and the weights W [K, N] are rounded to the short float format (the identity on the extended
  reals) and multiplied into a zero accumulator; the bias b [N] is laid as one row [1, N] and repeated down the A
  rows; the sum is, at (p, q), (∑ j, x (p, j) · W (j, q)) + b q: the affine layer applied to row p of the tile.
  The positive part is the maximum with the zero splat.
-/
import Idealize.ShloMosaic.Lib.ValueLayout
import Idealize.ShloMosaic.Lib.Pipeline.Value
import proofs.«146410_j38044820308123_2_alg».proof.Proof.LibMatmul
import proofs.«146410_j38044820308123_2_alg».proof.Proof.Spec

noncomputable section

open scoped BigOperators

namespace Cert.Tile

open Idealize.ShloMosaic Idealize.ShloMosaic.ValueIdx Cert.Decoder

variable {A K N : ℕ}

/-- x · W + b on a tile: the product into a zero accumulator plus the bias row repeated down the rows. -/
def affineTile (d : DotDims ⟨2, ![A, K]⟩ ⟨2, ![K, N]⟩ ⟨2, ![A, N]⟩) (hlt : FTy.bits .bf16 < FTy.bits .f32)
    (hc : (⟨1, ![N]⟩ : Shape).ShapeCasts ⟨2, ![1, N]⟩) (hb : (⟨2, ![1, N]⟩ : Shape).Broadcasts ⟨2, ![A, N]⟩)
    (x : FVec Ideal ⟨2, ![A, K]⟩ .f32) (W : FVec Ideal ⟨2, ![K, N]⟩ .f32) (b : FVec Ideal ⟨1, ![N]⟩ .f32) :
    FVec Ideal ⟨2, ![A, N]⟩ .f32 :=
  addf (matmul d none (truncf .bf16 x hlt) (truncf .bf16 W hlt) (constant ⟨2, ![A, N]⟩ .f32 0x00000000#32))
    (broadcastTo ⟨2, ![A, N]⟩ (shapeCast ⟨2, ![1, N]⟩ b hc) hb)

/-- The positive part of a tile: the maximum with the zero splat. -/
def posTile (y : FVec Ideal ⟨2, ![A, N]⟩ .f32) : FVec Ideal ⟨2, ![A, N]⟩ .f32 :=
  maximumf y (broadcast ⟨2, ![A, N]⟩ (Scalar.ofBits (F := Ideal) .f32 0x00000000#32))

/-- Row p of the affine tile is the affine layer of row p. -/
theorem rowOf_affineTile (d : DotDims ⟨2, ![A, K]⟩ ⟨2, ![K, N]⟩ ⟨2, ![A, N]⟩)
    (hl : d.lhsContracting = [1]) (hr : d.rhsContracting = [0]) (hln : d.lhsNonContracting = [0])
    (hrn : d.rhsNonContracting = [1]) (hlb : d.lhsBatch = []) (hrb : d.rhsBatch = [])
    (hlt : FTy.bits .bf16 < FTy.bits .f32)
    (hc : (⟨1, ![N]⟩ : Shape).ShapeCasts ⟨2, ![1, N]⟩) (hb : (⟨2, ![1, N]⟩ : Shape).Broadcasts ⟨2, ![A, N]⟩)
    (x : FVec Ideal ⟨2, ![A, K]⟩ .f32) (W : FVec Ideal ⟨2, ![K, N]⟩ .f32) (b : FVec Ideal ⟨1, ![N]⟩ .f32) (p : Fin A) :
    rowOf (affineTile d hlt hc hb x W b) p = affine W b (rowOf x p) := by
  funext q
  show matmul d none (truncf .bf16 x hlt) (truncf .bf16 W hlt) (constant ⟨2, ![A, N]⟩ .f32 0x00000000#32) (ix2 p q)
      + broadcastTo ⟨2, ![A, N]⟩ (shapeCast ⟨2, ![1, N]⟩ b hc) hb (ix2 p q)
    = (∑ j : Fin K, x (ix2 p j) * W (ix2 j q)) + b (ix1 q)
  have h1 := matmul_zero_ix2 d hl hr hln hrn hlb hrb none (truncf .bf16 x hlt) (truncf .bf16 W hlt) p q
  have h2 : broadcastTo ⟨2, ![A, N]⟩ (shapeCast ⟨2, ![1, N]⟩ b hc) hb (ix2 p q) = b (ix1 q) :=
    (broadcastTo_1b_ab_apply _ hb p q).trans (shapeCast_a_1a_apply b hc 0 q)
  exact congrArg₂ (· + ·) h1 h2

/-- Row p of the positive part is the positive part of row p. -/
theorem rowOf_posTile (y : FVec Ideal ⟨2, ![A, N]⟩ .f32) (p : Fin A) : rowOf (posTile y) p = pos (rowOf y p) := rfl

end Cert.Tile

end
-- ==== Proof.PointTile.lean ====
/-
  The point inputs of a tile. From the tile's rows x [400, 256], its features f [400, 64] and its point coordinates
  rl [400, 24] the kernel builds the matrix [3200, 323] whose row r = 8 p + k is (x row p, f row p, rl (p, 3 k … 3 k + 2)):
  rl is cut into eight slices of three columns, each given a unit middle axis and the eight stacked along it to
  [400, 8, 3]; x and f are given a unit middle axis and repeated eight times along it; the three are laid side by side
  along the last axis to [400, 8, 323]; and the two leading axes are merged row-major.
-/
import Idealize.ShloMosaic.Lib.ValueLayout
import Idealize.ShloMosaic.Lib.Pipeline.Value
import proofs.«146410_j38044820308123_2_alg».proof.Proof.Gen.KernelIdeal

noncomputable section

namespace Cert.KernelIdeal.PointTile

open Idealize.ShloMosaic Idealize.ShloMosaic.ValueIdx Cert.KernelIdeal Cert.KernelIdeal.Facts₀

/-- The eight points' coordinates of each node, stacked: entry (p, k, j) is rl (p, 3 k + j). -/
def coords (rl : FVec Ideal S400x24 .f32) : FVec Ideal S400x8x3 .f32 :=
  concatenate S400x8x3 1
    [⟨S400x1x3, shapeCast S400x1x3 (extractStridedSlice S400x3 ![0, 0] rl slices_S400x24_o0_0_S400x3) shapeCasts_S400x3_S400x1x3⟩,
      ⟨S400x1x3, shapeCast S400x1x3 (extractStridedSlice S400x3 ![0, 3] rl slices_S400x24_o0_3_S400x3) shapeCasts_S400x3_S400x1x3⟩,
      ⟨S400x1x3, shapeCast S400x1x3 (extractStridedSlice S400x3 ![0, 6] rl slices_S400x24_o0_6_S400x3) shapeCasts_S400x3_S400x1x3⟩,
      ⟨S400x1x3, shapeCast S400x1x3 (extractStridedSlice S400x3 ![0, 9] rl slices_S400x24_o0_9_S400x3) shapeCasts_S400x3_S400x1x3⟩,
      ⟨S400x1x3, shapeCast S400x1x3 (extractStridedSlice S400x3 ![0, 12] rl slices_S400x24_o0_12_S400x3) shapeCasts_S400x3_S400x1x3⟩,
      ⟨S400x1x3, shapeCast S400x1x3 (extractStridedSlice S400x3 ![0, 15] rl slices_S400x24_o0_15_S400x3) shapeCasts_S400x3_S400x1x3⟩,
      ⟨S400x1x3, shapeCast S400x1x3 (extractStridedSlice S400x3 ![0, 18] rl slices_S400x24_o0_18_S400x3) shapeCasts_S400x3_S400x1x3⟩,
      ⟨S400x1x3, shapeCast S400x1x3 (extractStridedSlice S400x3 ![0, 21] rl slices_S400x24_o0_21_S400x3) shapeCasts_S400x3_S400x1x3⟩]
    concatenates_S400x1x3_S400x1x3_S400x1x3_S400x1x3_S400x1x3_S400x1x3_S400x1x3_S400x1x3_S400x8x3_d1

/-- The tile's point inputs [3200, 323]. -/
def pointTile (x : FVec Ideal S400x256 .f32) (f : FVec Ideal S400x64 .f32) (rl : FVec Ideal S400x24 .f32) :
    FVec Ideal S3200x323 .f32 :=
  shapeCast S3200x323
    (concatenate S400x8x323 2
      [⟨S400x8x256, broadcastTo S400x8x256 (shapeCast S400x1x256 (shapeCast S400x1x256 x shapeCasts_S400x256_S400x1x256) shapeCasts_S400x1x256_S400x1x256) broadcasts_S400x1x256_S400x8x256⟩,
       ⟨S400x8x64, broadcastTo S400x8x64 (shapeCast S400x1x64 (shapeCast S400x1x64 f shapeCasts_S400x64_S400x1x64) shapeCasts_S400x1x64_S400x1x64) broadcasts_S400x1x64_S400x8x64⟩,
       ⟨S400x8x3, coords rl⟩]
      concatenates_S400x8x256_S400x8x64_S400x8x3_S400x8x323_d2)
    shapeCasts_S400x8x323_S3200x323

/-- One slice of three columns with its unit middle axis, at (p, ·, j): rl at column o + j. -/
theorem slice_apply (rl : FVec Ideal S400x24 .f32) (o : ℕ) (hs : S400x24.Slices ![0, o] S400x3)
    (hc : S400x3.ShapeCasts S400x1x3) (p : Fin 400) (u : Fin 1) (j : Fin 3) (ho : o + j.val < 24) :
    shapeCast S400x1x3 (extractStridedSlice S400x3 ![0, o] rl hs) hc (ix3 p u j) = rl (ix2 p ⟨o + j.val, ho⟩) := by
  have hu : u.val = 0 := by omega
  refine (shapeCast_apply _ hc (ix3 p u j) (ix2 p j) ?_).trans ?_
  · rw [Shape.rowMajor_val_two, Shape.rowMajor_val_three]
    show p.val * 3 + j.val = (p.val * 1 + u.val) * 3 + j.val
    rw [hu]; omega
  · refine extractStridedSlice_apply _ rl hs (ix2 p j) (ix2 p ⟨o + j.val, ho⟩) fun a => ?_
    match a with
    | ⟨0, _⟩ => show p.val = 0 + p.val; omega
    | ⟨1, _⟩ => rfl

/-- The stacked coordinates at (p, k, j): rl at column 3 k + j. -/
theorem coords_apply (rl : FVec Ideal S400x24 .f32) (p : Fin 400) (k : Fin 8) (j : Fin 3) :
    coords rl (ix3 p k j) = rl (ix2 p ⟨3 * k.val + j.val, by omega⟩) := by
  unfold coords
  match k with
  | ⟨0, _⟩ =>
    refine (concatenate_apply_piece (t := S400x8x3) (1 : Fin 3) _ _ _ 0 ?_ S400x1x3 _ ?_ (rfl : S400x1x3.rank = S400x8x3.rank) 0 ?_ (ix3 p (0 : Fin 1) j) ?_ ?_).trans
      (slice_apply rl 0 slices_S400x24_o0_0_S400x3 shapeCasts_S400x3_S400x1x3 p 0 j (by omega))
    · show 0 < 8; omega
    · rfl
    · rfl
    · intro b hb
      match b with
      | ⟨0, _⟩ => rfl
      | ⟨1, _⟩ => exact absurd rfl hb
      | ⟨2, _⟩ => rfl
    · rfl
  | ⟨1, _⟩ =>
    refine (concatenate_apply_piece (t := S400x8x3) (1 : Fin 3) _ _ _ 1 ?_ S400x1x3 _ ?_ (rfl : S400x1x3.rank = S400x8x3.rank) 1 ?_ (ix3 p (0 : Fin 1) j) ?_ ?_).trans
      (slice_apply rl 3 slices_S400x24_o0_3_S400x3 shapeCasts_S400x3_S400x1x3 p 0 j (by omega))
    · show 1 < 8; omega
    · rfl
    · rfl
    · intro b hb
      match b with
      | ⟨0, _⟩ => rfl
      | ⟨1, _⟩ => exact absurd rfl hb
      | ⟨2, _⟩ => rfl
    · rfl
  | ⟨2, _⟩ =>
    refine (concatenate_apply_piece (t := S400x8x3) (1 : Fin 3) _ _ _ 2 ?_ S400x1x3 _ ?_ (rfl : S400x1x3.rank = S400x8x3.rank) 2 ?_ (ix3 p (0 : Fin 1) j) ?_ ?_).trans
      (slice_apply rl 6 slices_S400x24_o0_6_S400x3 shapeCasts_S400x3_S400x1x3 p 0 j (by omega))
    · show 2 < 8; omega
    · rfl
    · rfl
    · intro b hb
      match b with
      | ⟨0, _⟩ => rfl
      | ⟨1, _⟩ => exact absurd rfl hb
      | ⟨2, _⟩ => rfl
    · rfl
  | ⟨3, _⟩ =>
    refine (concatenate_apply_piece (t := S400x8x3) (1 : Fin 3) _ _ _ 3 ?_ S400x1x3 _ ?_ (rfl : S400x1x3.rank = S400x8x3.rank) 3 ?_ (ix3 p (0 : Fin 1) j) ?_ ?_).trans
      (slice_apply rl 9 slices_S400x24_o0_9_S400x3 shapeCasts_S400x3_S400x1x3 p 0 j (by omega))
    · show 3 < 8; omega
    · rfl
    · rfl
    · intro b hb
      match b with
      | ⟨0, _⟩ => rfl
      | ⟨1, _⟩ => exact absurd rfl hb
      | ⟨2, _⟩ => rfl
    · rfl
  | ⟨4, _⟩ =>
    refine (concatenate_apply_piece (t := S400x8x3) (1 : Fin 3) _ _ _ 4 ?_ S400x1x3 _ ?_ (rfl : S400x1x3.rank = S400x8x3.rank) 4 ?_ (ix3 p (0 : Fin 1) j) ?_ ?_).trans
      (slice_apply rl 12 slices_S400x24_o0_12_S400x3 shapeCasts_S400x3_S400x1x3 p 0 j (by omega))
    · show 4 < 8; omega
    · rfl
    · rfl
    · intro b hb
      match b with
      | ⟨0, _⟩ => rfl
      | ⟨1, _⟩ => exact absurd rfl hb
      | ⟨2, _⟩ => rfl
    · rfl
  | ⟨5, _⟩ =>
    refine (concatenate_apply_piece (t := S400x8x3) (1 : Fin 3) _ _ _ 5 ?_ S400x1x3 _ ?_ (rfl : S400x1x3.rank = S400x8x3.rank) 5 ?_ (ix3 p (0 : Fin 1) j) ?_ ?_).trans
      (slice_apply rl 15 slices_S400x24_o0_15_S400x3 shapeCasts_S400x3_S400x1x3 p 0 j (by omega))
    · show 5 < 8; omega
    · rfl
    · rfl
    · intro b hb
      match b with
      | ⟨0, _⟩ => rfl
      | ⟨1, _⟩ => exact absurd rfl hb
      | ⟨2, _⟩ => rfl
    · rfl
  | ⟨6, _⟩ =>
    refine (concatenate_apply_piece (t := S400x8x3) (1 : Fin 3) _ _ _ 6 ?_ S400x1x3 _ ?_ (rfl : S400x1x3.rank = S400x8x3.rank) 6 ?_ (ix3 p (0 : Fin 1) j) ?_ ?_).trans
      (slice_apply rl 18 slices_S400x24_o0_18_S400x3 shapeCasts_S400x3_S400x1x3 p 0 j (by omega))
    · show 6 < 8; omega
    · rfl
    · rfl
    · intro b hb
      match b with
      | ⟨0, _⟩ => rfl
      | ⟨1, _⟩ => exact absurd rfl hb
      | ⟨2, _⟩ => rfl
    · rfl
  | ⟨7, _⟩ =>
    refine (concatenate_apply_piece (t := S400x8x3) (1 : Fin 3) _ _ _ 7 ?_ S400x1x3 _ ?_ (rfl : S400x1x3.rank = S400x8x3.rank) 7 ?_ (ix3 p (0 : Fin 1) j) ?_ ?_).trans
      (slice_apply rl 21 slices_S400x24_o0_21_S400x3 shapeCasts_S400x3_S400x1x3 p 0 j (by omega))
    · show 7 < 8; omega
    · rfl
    · rfl
    · intro b hb
      match b with
      | ⟨0, _⟩ => rfl
      | ⟨1, _⟩ => exact absurd rfl hb
      | ⟨2, _⟩ => rfl
    · rfl

/-- A [400, D] tile given a unit middle axis and repeated eight times along it, at (p, k, c): the tile at (p, c). -/
theorem rep_apply {D : ℕ} (x : FVec Ideal ⟨2, ![400, D]⟩ .f32)
    (h1 : (⟨2, ![400, D]⟩ : Shape).ShapeCasts ⟨3, ![400, 1, D]⟩)
    (h2 : (⟨3, ![400, 1, D]⟩ : Shape).ShapeCasts ⟨3, ![400, 1, D]⟩)
    (h3 : (⟨3, ![400, 1, D]⟩ : Shape).Broadcasts ⟨3, ![400, 8, D]⟩) (p : Fin 400) (k : Fin 8) (c : Fin D) :
    broadcastTo ⟨3, ![400, 8, D]⟩ (shapeCast ⟨3, ![400, 1, D]⟩ (shapeCast ⟨3, ![400, 1, D]⟩ x h1) h2) h3 (ix3 p k c)
      = x (ix2 p c) := by
  rw [shapeCast_self]
  refine (broadcastTo_apply _ h3 (ix3 p k c) (ix3 p (0 : Fin 1) c) fun a => ?_).trans ?_
  · match a with
    | ⟨0, _⟩ => show p.val = if (400 : ℕ) = 1 then 0 else p.val; rw [if_neg (by norm_num)]
    | ⟨1, _⟩ => show (0 : ℕ) = if (1 : ℕ) = 1 then 0 else k.val; rw [if_pos rfl]
    | ⟨2, _⟩ =>
      show c.val = if D = 1 then 0 else c.val
      split
      · have := c.isLt; omega
      · rfl
  · refine shapeCast_apply x h1 (ix3 p (0 : Fin 1) c) (ix2 p c) ?_
    rw [Shape.rowMajor_val_two, Shape.rowMajor_val_three]
    show p.val * D + c.val = (p.val * 1 + 0) * D + c.val
    rw [Nat.mul_one, Nat.add_zero]

/-- The point tile at (r, c), r = 8 p + k: the node's row for c < 256, its features for c < 320, else the
    coordinates of point k. -/
theorem pointTile_apply (x : FVec Ideal S400x256 .f32) (f : FVec Ideal S400x64 .f32) (rl : FVec Ideal S400x24 .f32)
    (r : Fin 3200) (c : Fin 323) :
    pointTile x f rl (ix2 r c) =
      if h : c.val < 256 then x (ix2 (⟨r.val / 8, by omega⟩ : Fin 400) (⟨c.val, h⟩ : Fin 256))
      else if h2 : c.val < 320 then f (ix2 (⟨r.val / 8, by omega⟩ : Fin 400) (⟨c.val - 256, by omega⟩ : Fin 64))
      else rl (ix2 (⟨r.val / 8, by omega⟩ : Fin 400) (⟨3 * (r.val % 8) + (c.val - 320), by omega⟩ : Fin 24)) := by
  unfold pointTile
  refine (shapeCast_apply _ shapeCasts_S400x8x323_S3200x323 (ix2 r c) (ix3 (⟨r.val / 8, by omega⟩ : Fin 400) (⟨r.val % 8, by omega⟩ : Fin 8) c) ?_).trans ?_
  · rw [Shape.rowMajor_val_two, Shape.rowMajor_val_three]
    show (r.val / 8 * 8 + r.val % 8) * 323 + c.val = r.val * 323 + c.val
    omega
  · split
    · rename_i h
      refine (concatenate_apply_piece (t := S400x8x323) (2 : Fin 3) _ _ _ 0 ?_ S400x8x256 _ ?_
        (rfl : S400x8x256.rank = S400x8x323.rank) 0 ?_ (ix3 (⟨r.val / 8, by omega⟩ : Fin 400) (⟨r.val % 8, by omega⟩ : Fin 8) (⟨c.val, h⟩ : Fin 256)) ?_ ?_).trans
        (rep_apply x shapeCasts_S400x256_S400x1x256 shapeCasts_S400x1x256_S400x1x256 broadcasts_S400x1x256_S400x8x256 _ _ _)
      · show 0 < 3; omega
      · rfl
      · rfl
      · intro b hb
        match b with
        | ⟨0, _⟩ => rfl
        | ⟨1, _⟩ => rfl
        | ⟨2, _⟩ => exact absurd rfl hb
      · show 0 + c.val = c.val; omega
    · rename_i h
      split
      · rename_i h2
        refine (concatenate_apply_piece (t := S400x8x323) (2 : Fin 3) _ _ _ 1 ?_ S400x8x64 _ ?_
          (rfl : S400x8x64.rank = S400x8x323.rank) 256 ?_ (ix3 (⟨r.val / 8, by omega⟩ : Fin 400) (⟨r.val % 8, by omega⟩ : Fin 8) (⟨c.val - 256, by omega⟩ : Fin 64)) ?_ ?_).trans
          (rep_apply f shapeCasts_S400x64_S400x1x64 shapeCasts_S400x1x64_S400x1x64 broadcasts_S400x1x64_S400x8x64 _ _ _)
        · show 1 < 3; omega
        · rfl
        · rfl
        · intro b hb
          match b with
          | ⟨0, _⟩ => rfl
          | ⟨1, _⟩ => rfl
          | ⟨2, _⟩ => exact absurd rfl hb
        · show 256 + (c.val - 256) = c.val; omega
      · rename_i h2
        refine (concatenate_apply_piece (t := S400x8x323) (2 : Fin 3) _ _ _ 2 ?_ S400x8x3 _ ?_
          (rfl : S400x8x3.rank = S400x8x323.rank) 320 ?_ (ix3 (⟨r.val / 8, by omega⟩ : Fin 400) (⟨r.val % 8, by omega⟩ : Fin 8) (⟨c.val - 320, by have := c.isLt; omega⟩ : Fin 3)) ?_ ?_).trans
          (coords_apply rl _ _ _)
        · show 2 < 3; omega
        · rfl
        · rfl
        · intro b hb
          match b with
          | ⟨0, _⟩ => rfl
          | ⟨1, _⟩ => rfl
          | ⟨2, _⟩ => exact absurd rfl hb
        · show 320 + (c.val - 320) = c.val; omega

end Cert.KernelIdeal.PointTile

end
-- ==== Proof.KernelPayload.lean ====
/-
  What the kernel body stores, read one row at a time. Each stored tile is a composition of affine layers with
  positive parts over the tile of 400 nodes (or its 3200 points), so row p of the coordinates tile is the
  specification's coordinates of row p of the input tile, and row r = 8 p + k of the decoded tile is the
  specification's decoded row of point k of row p.
-/
import proofs.«146410_j38044820308123_2_alg».proof.Proof.Gen.KernelIdeal.Frame
import proofs.«146410_j38044820308123_2_alg».proof.Proof.Tile
import proofs.«146410_j38044820308123_2_alg».proof.Proof.PointTile

noncomputable section

namespace Cert.KernelIdeal.Payload

open Idealize.ShloMosaic Idealize.ShloMosaic.ValueIdx Cert.KernelIdeal Cert.KernelIdeal.Gen Cert.Decoder Cert.Tile Cert.KernelIdeal.PointTile

/-- The features tile is three layers of the input tile. -/
theorem pay2_eq (v0 : FVec Ideal S400x256 .f32) (v1 : FVec Ideal S256x256 .f32) (v5 : FVec Ideal S256 .f32)
    (v11 : FVec Ideal S256x128 .f32) (v15 : FVec Ideal S128 .f32) (v21 : FVec Ideal S128x64 .f32) (v25 : FVec Ideal S64 .f32) :
    k0_pay2 v0 v1 v5 v11 v15 v21 v25 = (posTile (affineTile dot_S400x128_S128x64_S400x64_1_0_0_1_n_n bitsLt_bf16_f32 shapeCasts_S64_S1x64 broadcasts_S1x64_S400x64 (posTile (affineTile dot_S400x256_S256x128_S400x128_1_0_0_1_n_n bitsLt_bf16_f32 shapeCasts_S128_S1x128 broadcasts_S1x128_S400x128 (posTile (affineTile dot_S400x256_S256x256_S400x256_1_0_0_1_n_n bitsLt_bf16_f32 shapeCasts_S256_S1x256 broadcasts_S1x256_S400x256 v0 v1 v5)) v11 v15)) v21 v25)) := rfl

/-- The coordinates tile is one more affine layer of the features tile. -/
theorem pay5_eq (v0 : FVec Ideal S400x256 .f32) (v1 : FVec Ideal S256x256 .f32) (v5 : FVec Ideal S256 .f32)
    (v11 : FVec Ideal S256x128 .f32) (v15 : FVec Ideal S128 .f32) (v21 : FVec Ideal S128x64 .f32) (v25 : FVec Ideal S64 .f32)
    (v31 : FVec Ideal S64x24 .f32) (v35 : FVec Ideal S24 .f32) :
    k0_pay5 (k0_pay3 v0 v1 v5 v11 v15 v21 v25 v31) (k0_pay4 v35)
      = (affineTile dot_S400x64_S64x24_S400x24_1_0_0_1_n_n bitsLt_bf16_f32 shapeCasts_S24_S1x24 broadcasts_S1x24_S400x24 (k0_pay2 v0 v1 v5 v11 v15 v21 v25) v31 v35) := rfl

/-- The second hidden tile of the points is two layers of the point tile. -/
theorem pay6_eq (v0 : FVec Ideal S400x256 .f32) (v30 : FVec Ideal S400x64 .f32) (v34 v37 : FVec Ideal S400x24 .f32)
    (v64 : FVec Ideal S323x256 .f32) (v68 : FVec Ideal S256 .f32) (v74 : FVec Ideal S256x256 .f32) (v78 : FVec Ideal S256 .f32) :
    k0_pay6 v0 v30 v34 v37 v64 v68 v74 v78
      = (posTile (affineTile dot_S3200x256_S256x256_S3200x256_1_0_0_1_n_n bitsLt_bf16_f32 shapeCasts_S256_S1x256 broadcasts_S1x256_S3200x256 (posTile (affineTile dot_S3200x323_S323x256_S3200x256_1_0_0_1_n_n bitsLt_bf16_f32 shapeCasts_S256_S1x256 broadcasts_S1x256_S3200x256 (pointTile v0 v30 (k0_pay5 v34 v37)) v64 v68)) v74 v78)) := rfl

/-- The decoded tile is one more layer. -/
theorem pay1_eq (v83 : FVec Ideal S3200x256 .f32) (v84 : FVec Ideal S256x256 .f32) (v88 : FVec Ideal S256 .f32) :
    k0_pay1 v83 (k0_pay7 v84) v88 = (posTile (affineTile dot_S3200x256_S256x256_S3200x256_1_0_0_1_n_n bitsLt_bf16_f32 shapeCasts_S256_S1x256 broadcasts_S1x256_S3200x256 v83 v84 v88)) := rfl

variable (P : Params)

/-- Row p of the features tile. -/
theorem row_feats (x : FVec Ideal S400x256 .f32) (p : Fin 400) : rowOf (k0_pay2 x P.Wg0 P.bg0 P.Wg1 P.bg1 P.Wg2 P.bg2) p = feats P (rowOf x p) := by
  rw [pay2_eq, rowOf_posTile, rowOf_affineTile _ rfl rfl rfl rfl rfl rfl, rowOf_posTile, rowOf_affineTile _ rfl rfl rfl rfl rfl rfl, rowOf_posTile,
    rowOf_affineTile _ rfl rfl rfl rfl rfl rfl]
  rfl

/-- Row p of the coordinates tile. -/
theorem row_rel (x : FVec Ideal S400x256 .f32) (p : Fin 400) : rowOf (k0_pay5 (k0_pay3 x P.Wg0 P.bg0 P.Wg1 P.bg1 P.Wg2 P.bg2 P.Wdec) (k0_pay4 P.bdec)) p = rel P (rowOf x p) := by
  rw [pay5_eq, rowOf_affineTile _ rfl rfl rfl rfl rfl rfl, row_feats]
  rfl

/-- Row r = 8 p + k of the point tile is the input row of point k of node p. -/
theorem row_pointTile (x : FVec Ideal S400x256 .f32) (r : Fin 3200) :
    rowOf (pointTile x (k0_pay2 x P.Wg0 P.bg0 P.Wg1 P.bg1 P.Wg2 P.bg2) (k0_pay5 (k0_pay3 x P.Wg0 P.bg0 P.Wg1 P.bg1 P.Wg2 P.bg2 P.Wdec) (k0_pay4 P.bdec))) r
      = pointIn P (rowOf x (⟨r.val / 8, by omega⟩ : Fin 400)) (⟨r.val % 8, by omega⟩ : Fin 8) := by
  funext c
  show pointTile x (k0_pay2 x P.Wg0 P.bg0 P.Wg1 P.bg1 P.Wg2 P.bg2) (k0_pay5 (k0_pay3 x P.Wg0 P.bg0 P.Wg1 P.bg1 P.Wg2 P.bg2 P.Wdec) (k0_pay4 P.bdec)) (ix2 r c) = _
  rw [pointTile_apply]
  unfold pointIn
  by_cases h : c.val < 256
  · rw [dif_pos h, dif_pos h]; rfl
  · rw [dif_neg h, dif_neg h]
    by_cases h2 : c.val < 320
    · rw [dif_pos h2, dif_pos h2]
      exact congrFun (row_feats P x _) _
    · rw [dif_neg h2, dif_neg h2]
      exact congrFun (row_rel P x _) _

/-- Row r = 8 p + k of the decoded tile. -/
theorem row_decoded (x : FVec Ideal S400x256 .f32) (r : Fin 3200) :
    rowOf (k0_pay1 (k0_pay6 x (k0_pay2 x P.Wg0 P.bg0 P.Wg1 P.bg1 P.Wg2 P.bg2) (k0_pay3 x P.Wg0 P.bg0 P.Wg1 P.bg1 P.Wg2 P.bg2 P.Wdec) (k0_pay4 P.bdec) P.W0 P.b0 P.W1 P.b1) (k0_pay7 P.W2) P.b2) r
      = decoded P (rowOf x (⟨r.val / 8, by omega⟩ : Fin 400)) (⟨r.val % 8, by omega⟩ : Fin 8) := by
  rw [pay1_eq, rowOf_posTile, rowOf_affineTile _ rfl rfl rfl rfl rfl rfl, pay6_eq, rowOf_posTile, rowOf_affineTile _ rfl rfl rfl rfl rfl rfl, rowOf_posTile,
    rowOf_affineTile _ rfl rfl rfl rfl rfl rfl, row_pointTile]
  rfl

/-- The zero offsets of a whole-buffer rectangle, rank 2 and rank 1. -/
theorem hz2 : (![0, 0] : Fin 2 → Nat) = fun _ => 0 := funext fun a => by fin_cases a <;> rfl
theorem hz1 : (![0] : Fin 1 → Nat) = fun _ => 0 := funext fun a => by fin_cases a; rfl

/-- An entry of a matrix is an entry of one of its rows. -/
theorem at_idx {A B : ℕ} (T : FVec Ideal ⟨2, ![A, B]⟩ .f32) (y : (⟨2, ![A, B]⟩ : Shape).Idx) :
    T y = rowOf T ⟨(y 0).val, idx2_lt0 y⟩ ⟨(y 1).val, idx2_lt1 y⟩ :=
  congrArg T (by funext a; match a with | ⟨0, _⟩ => rfl | ⟨1, _⟩ => rfl)

/-- What the body leaves in the coordinates window: entry (p, q) is the specification's coordinate q of row p. -/
theorem out0_15_apply (x0 : FVec Ideal S400x256 .f32) (y : S400x24.Idx) :
    out0_15 (F := Ideal) x0 P.Wg0 P.bg0 P.Wg1 P.bg1 P.Wg2 P.bg2 P.Wdec P.bdec P.W0 P.b0 P.W1 P.b1 P.W2 P.b2 y = rel P (rowOf x0 ⟨(y 0).val, idx2_lt0 y⟩) ⟨(y 1).val, idx2_lt1 y⟩ := by
  unfold out0_15
  rw [View.canon_unit_zero hz2]
  simp only [View.ld_unit_zero (S := S400x256) hz2, View.ld_unit_zero (S := S256x256) hz2, View.ld_unit_zero (S := S256x128) hz2, View.ld_unit_zero (S := S128x64) hz2, View.ld_unit_zero (S := S64x24) hz2, View.ld_unit_zero (S := S323x256) hz2, View.ld_unit_zero (S := S256) hz1, View.ld_unit_zero (S := S128) hz1, View.ld_unit_zero (S := S64) hz1, View.ld_unit_zero (S := S24) hz1]
  refine (at_idx _ y).trans ?_
  rw [row_rel]

/-- What the body leaves in the decoded window: entry (r, q), r = 8 p + k, is the specification's decoded number q of
    point k of row p. -/
theorem out0_16_apply (x0 : FVec Ideal S400x256 .f32) (y : S3200x256.Idx) :
    out0_16 (F := Ideal) x0 P.Wg0 P.bg0 P.Wg1 P.bg1 P.Wg2 P.bg2 P.Wdec P.bdec P.W0 P.b0 P.W1 P.b1 P.W2 P.b2 y
      = decoded P (rowOf x0 (⟨(y 0).val / 8, by have := idx2_lt0 y; omega⟩ : Fin 400))
          (⟨(y 0).val % 8, by omega⟩ : Fin 8) ⟨(y 1).val, idx2_lt1 y⟩ := by
  unfold out0_16
  rw [View.canon_unit_zero hz2]
  simp only [View.ld_unit_zero (S := S400x256) hz2, View.ld_unit_zero (S := S256x256) hz2, View.ld_unit_zero (S := S256x128) hz2, View.ld_unit_zero (S := S128x64) hz2, View.ld_unit_zero (S := S64x24) hz2, View.ld_unit_zero (S := S323x256) hz2, View.ld_unit_zero (S := S256) hz1, View.ld_unit_zero (S := S128) hz1, View.ld_unit_zero (S := S64) hz1, View.ld_unit_zero (S := S24) hz1]
  refine (at_idx _ y).trans ?_
  rw [row_decoded]

end Cert.KernelIdeal.Payload

end
-- ==== Proof.KernelValue.lean ====
/-
  From the tiles to the arrays. Grid point t stages rows 400 t … 400 t + 399 of the input array and the whole of each
  weight array, and writes back rows 400 t … of the coordinates array [50000, 24] and rows 3200 t … of the decoded
  array [400000, 256]. So block t of each result is the specification read through that block; the 125 blocks tile
  each array; and after the region the coordinates are re-laid row-major to [400000, 3] and the node numbers are
  written by an iota repeated eight times.
-/
import proofs.«146410_j38044820308123_2_alg».proof.Proof.KernelPayload
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx Cert.Decoder
open Idealize.ShloMosaic.Pipeline (Dat)

/-- The coordinates before they are re-laid: entry (n, q) is coordinate q of node n. -/
def relFlat (P : Params) (X : FVec Ideal ⟨2, ![50000, 256]⟩ .f32) : FVec Ideal ⟨2, ![50000, 24]⟩ .f32 := fun i =>
  rel P (rowOf X ⟨(i 0).val, idx2_lt0 i⟩) ⟨(i 1).val, idx2_lt1 i⟩

theorem rel_congr (P : Params) (X : FVec Ideal ⟨2, ![50000, 256]⟩ .f32) {a a' : Fin 50000} {b b' : Fin 24}
    (ha : a.val = a'.val) (hb : b.val = b'.val) : rel P (rowOf X a) b = rel P (rowOf X a') b' := by
  obtain rfl : a = a' := Fin.ext ha
  obtain rfl : b = b' := Fin.ext hb
  rfl

theorem decoded_congr (P : Params) (X : FVec Ideal ⟨2, ![50000, 256]⟩ .f32) {a a' : Fin 50000} {k k' : Fin 8} {q q' : Fin 256}
    (ha : a.val = a'.val) (hk : k.val = k'.val) (hq : q.val = q'.val) :
    decoded P (rowOf X a) k q = decoded P (rowOf X a') k' q' := by
  obtain rfl : a = a' := Fin.ext ha
  obtain rfl : k = k' := Fin.ext hk
  obtain rfl : q = q' := Fin.ext hq
  rfl

variable (m : (ℓ : Loc nD τ sig) → Buf (Elt Ideal) ℓ) (ρ : Dev nD → PrngReg)

/-- The weights as launched. -/
def params (c : Dev nD) : Params :=
  ⟨m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11),
   m ((c : Thread nD τ).loc main_arg12),
   m ((c : Thread nD τ).loc main_arg13),
   m ((c : Thread nD τ).loc main_arg14)⟩

/-! ## Where each window's block sits -/

/-- The tiled windows' block index at point t is (t, 0). -/
theorem idx_facts : ∀ t : Fin cfg0.N,
    win0_0.index t (0 : Fin 2) = t.val ∧ win0_0.index t (1 : Fin 2) = 0
    ∧ win0_15.index t (0 : Fin 2) = t.val ∧ win0_15.index t (1 : Fin 2) = 0
    ∧ win0_16.index t (0 : Fin 2) = t.val ∧ win0_16.index t (1 : Fin 2) = 0 :=
  (by decide +kernel : ∀ t : Fin grid0.N, _)

/-! The weight windows' one block is the whole array, at every point. -/
theorem wf1 : ∀ t : Fin cfg0.N, win0_1.index t (0 : Fin 2) = 0 ∧ win0_1.index t (1 : Fin 2) = 0 :=
  (by decide +kernel : ∀ t : Fin grid0.N, _)
theorem blk1 (c : Dev nD) (t : Fin cfg0.N) : (iblk m c 1 t : FVec Ideal S256x256 .f32) = m ((c : Thread nD τ).loc main_arg1) := by
  funext y
  show V m c main_arg1 (((cfg0.win 1).blk t).view.emb y) = V m c main_arg1 y
  refine congrArg _ (funext fun a => Fin.ext ?_)
  obtain ⟨e0, e1⟩ := wf1 t
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega
theorem wf2 : ∀ t : Fin cfg0.N, win0_2.index t (0 : Fin 1) = 0 :=
  (by decide +kernel : ∀ t : Fin grid0.N, _)
theorem blk2 (c : Dev nD) (t : Fin cfg0.N) : (iblk m c 2 t : FVec Ideal S256 .f32) = m ((c : Thread nD τ).loc main_arg2) := by
  funext y
  show V m c main_arg2 (((cfg0.win 2).blk t).view.emb y) = V m c main_arg2 y
  refine congrArg _ (funext fun a => Fin.ext ?_)
  have e0 := wf2 t
  match a with
  | ⟨0, _⟩ => show win0_2.index t (0 : Fin 1) * 256 + 1 * (y 0).val = (y 0).val; rw [e0]; omega
theorem wf3 : ∀ t : Fin cfg0.N, win0_3.index t (0 : Fin 2) = 0 ∧ win0_3.index t (1 : Fin 2) = 0 :=
  (by decide +kernel : ∀ t : Fin grid0.N, _)
theorem blk3 (c : Dev nD) (t : Fin cfg0.N) : (iblk m c 3 t : FVec Ideal S256x128 .f32) = m ((c : Thread nD τ).loc main_arg3) := by
  funext y
  show V m c main_arg3 (((cfg0.win 3).blk t).view.emb y) = V m c main_arg3 y
  refine congrArg _ (funext fun a => Fin.ext ?_)
  obtain ⟨e0, e1⟩ := wf3 t
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega
theorem wf4 : ∀ t : Fin cfg0.N, win0_4.index t (0 : Fin 1) = 0 :=
  (by decide +kernel : ∀ t : Fin grid0.N, _)
theorem blk4 (c : Dev nD) (t : Fin cfg0.N) : (iblk m c 4 t : FVec Ideal S128 .f32) = m ((c : Thread nD τ).loc main_arg4) := by
  funext y
  show V m c main_arg4 (((cfg0.win 4).blk t).view.emb y) = V m c main_arg4 y
  refine congrArg _ (funext fun a => Fin.ext ?_)
  have e0 := wf4 t
  match a with
  | ⟨0, _⟩ => show win0_4.index t (0 : Fin 1) * 128 + 1 * (y 0).val = (y 0).val; rw [e0]; omega
theorem wf5 : ∀ t : Fin cfg0.N, win0_5.index t (0 : Fin 2) = 0 ∧ win0_5.index t (1 : Fin 2) = 0 :=
  (by decide +kernel : ∀ t : Fin grid0.N, _)
theorem blk5 (c : Dev nD) (t : Fin cfg0.N) : (iblk m c 5 t : FVec Ideal S128x64 .f32) = m ((c : Thread nD τ).loc main_arg5) := by
  funext y
  show V m c main_arg5 (((cfg0.win 5).blk t).view.emb y) = V m c main_arg5 y
  refine congrArg _ (funext fun a => Fin.ext ?_)
  obtain ⟨e0, e1⟩ := wf5 t
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega
theorem wf6 : ∀ t : Fin cfg0.N, win0_6.index t (0 : Fin 1) = 0 :=
  (by decide +kernel : ∀ t : Fin grid0.N, _)
theorem blk6 (c : Dev nD) (t : Fin cfg0.N) : (iblk m c 6 t : FVec Ideal S64 .f32) = m ((c : Thread nD τ).loc main_arg6) := by
  funext y
  show V m c main_arg6 (((cfg0.win 6).blk t).view.emb y) = V m c main_arg6 y
  refine congrArg _ (funext fun a => Fin.ext ?_)
  have e0 := wf6 t
  match a with
  | ⟨0, _⟩ => show win0_6.index t (0 : Fin 1) * 64 + 1 * (y 0).val = (y 0).val; rw [e0]; omega
theorem wf7 : ∀ t : Fin cfg0.N, win0_7.index t (0 : Fin 2) = 0 ∧ win0_7.index t (1 : Fin 2) = 0 :=
  (by decide +kernel : ∀ t : Fin grid0.N, _)
theorem blk7 (c : Dev nD) (t : Fin cfg0.N) : (iblk m c 7 t : FVec Ideal S64x24 .f32) = m ((c : Thread nD τ).loc main_arg7) := by
  funext y
  show V m c main_arg7 (((cfg0.win 7).blk t).view.emb y) = V m c main_arg7 y
  refine congrArg _ (funext fun a => Fin.ext ?_)
  obtain ⟨e0, e1⟩ := wf7 t
  match a with
  | ⟨0, _⟩ => show win0_7.index t (0 : Fin 2) * 64 + 1 * (y 0).val = (y 0).val; rw [e0]; omega
  | ⟨1, _⟩ => show win0_7.index t (1 : Fin 2) * 24 + 1 * (y 1).val = (y 1).val; rw [e1]; omega
theorem wf8 : ∀ t : Fin cfg0.N, win0_8.index t (0 : Fin 1) = 0 :=
  (by decide +kernel : ∀ t : Fin grid0.N, _)
theorem blk8 (c : Dev nD) (t : Fin cfg0.N) : (iblk m c 8 t : FVec Ideal S24 .f32) = m ((c : Thread nD τ).loc main_arg8) := by
  funext y
  show V m c main_arg8 (((cfg0.win 8).blk t).view.emb y) = V m c main_arg8 y
  refine congrArg _ (funext fun a => Fin.ext ?_)
  have e0 := wf8 t
  match a with
  | ⟨0, _⟩ => show win0_8.index t (0 : Fin 1) * 24 + 1 * (y 0).val = (y 0).val; rw [e0]; omega
theorem wf9 : ∀ t : Fin cfg0.N, win0_9.index t (0 : Fin 2) = 0 ∧ win0_9.index t (1 : Fin 2) = 0 :=
  (by decide +kernel : ∀ t : Fin grid0.N, _)
theorem blk9 (c : Dev nD) (t : Fin cfg0.N) : (iblk m c 9 t : FVec Ideal S323x256 .f32) = m ((c : Thread nD τ).loc main_arg9) := by
  funext y
  show V m c main_arg9 (((cfg0.win 9).blk t).view.emb y) = V m c main_arg9 y
  refine congrArg _ (funext fun a => Fin.ext ?_)
  obtain ⟨e0, e1⟩ := wf9 t
  match a with
  | ⟨0, _⟩ => show win0_9.index t (0 : Fin 2) * 323 + 1 * (y 0).val = (y 0).val; rw [e0]; omega
  | ⟨1, _⟩ => show win0_9.index t (1 : Fin 2) * 256 + 1 * (y 1).val = (y 1).val; rw [e1]; omega
theorem wf10 : ∀ t : Fin cfg0.N, win0_10.index t (0 : Fin 1) = 0 :=
  (by decide +kernel : ∀ t : Fin grid0.N, _)
theorem blk10 (c : Dev nD) (t : Fin cfg0.N) : (iblk m c 10 t : FVec Ideal S256 .f32) = m ((c : Thread nD τ).loc main_arg10) := by
  funext y
  show V m c main_arg10 (((cfg0.win 10).blk t).view.emb y) = V m c main_arg10 y
  refine congrArg _ (funext fun a => Fin.ext ?_)
  have e0 := wf10 t
  match a with
  | ⟨0, _⟩ => show win0_10.index t (0 : Fin 1) * 256 + 1 * (y 0).val = (y 0).val; rw [e0]; omega
theorem wf11 : ∀ t : Fin cfg0.N, win0_11.index t (0 : Fin 2) = 0 ∧ win0_11.index t (1 : Fin 2) = 0 :=
  (by decide +kernel : ∀ t : Fin grid0.N, _)
theorem blk11 (c : Dev nD) (t : Fin cfg0.N) : (iblk m c 11 t : FVec Ideal S256x256 .f32) = m ((c : Thread nD τ).loc main_arg11) := by
  funext y
  show V m c main_arg11 (((cfg0.win 11).blk t).view.emb y) = V m c main_arg11 y
  refine congrArg _ (funext fun a => Fin.ext ?_)
  obtain ⟨e0, e1⟩ := wf11 t
  match a with
  | ⟨0, _⟩ => show win0_11.index t (0 : Fin 2) * 256 + 1 * (y 0).val = (y 0).val; rw [e0]; omega
  | ⟨1, _⟩ => show win0_11.index t (1 : Fin 2) * 256 + 1 * (y 1).val = (y 1).val; rw [e1]; omega
theorem wf12 : ∀ t : Fin cfg0.N, win0_12.index t (0 : Fin 1) = 0 :=
  (by decide +kernel : ∀ t : Fin grid0.N, _)
theorem blk12 (c : Dev nD) (t : Fin cfg0.N) : (iblk m c 12 t : FVec Ideal S256 .f32) = m ((c : Thread nD τ).loc main_arg12) := by
  funext y
  show V m c main_arg12 (((cfg0.win 12).blk t).view.emb y) = V m c main_arg12 y
  refine congrArg _ (funext fun a => Fin.ext ?_)
  have e0 := wf12 t
  match a with
  | ⟨0, _⟩ => show win0_12.index t (0 : Fin 1) * 256 + 1 * (y 0).val = (y 0).val; rw [e0]; omega
theorem wf13 : ∀ t : Fin cfg0.N, win0_13.index t (0 : Fin 2) = 0 ∧ win0_13.index t (1 : Fin 2) = 0 :=
  (by decide +kernel : ∀ t : Fin grid0.N, _)
theorem blk13 (c : Dev nD) (t : Fin cfg0.N) : (iblk m c 13 t : FVec Ideal S256x256 .f32) = m ((c : Thread nD τ).loc main_arg13) := by
  funext y
  show V m c main_arg13 (((cfg0.win 13).blk t).view.emb y) = V m c main_arg13 y
  refine congrArg _ (funext fun a => Fin.ext ?_)
  obtain ⟨e0, e1⟩ := wf13 t
  match a with
  | ⟨0, _⟩ => show win0_13.index t (0 : Fin 2) * 256 + 1 * (y 0).val = (y 0).val; rw [e0]; omega
  | ⟨1, _⟩ => show win0_13.index t (1 : Fin 2) * 256 + 1 * (y 1).val = (y 1).val; rw [e1]; omega
theorem wf14 : ∀ t : Fin cfg0.N, win0_14.index t (0 : Fin 1) = 0 :=
  (by decide +kernel : ∀ t : Fin grid0.N, _)
theorem blk14 (c : Dev nD) (t : Fin cfg0.N) : (iblk m c 14 t : FVec Ideal S256 .f32) = m ((c : Thread nD τ).loc main_arg14) := by
  funext y
  show V m c main_arg14 (((cfg0.win 14).blk t).view.emb y) = V m c main_arg14 y
  refine congrArg _ (funext fun a => Fin.ext ?_)
  have e0 := wf14 t
  match a with
  | ⟨0, _⟩ => show win0_14.index t (0 : Fin 1) * 256 + 1 * (y 0).val = (y 0).val; rw [e0]; omega

/-- Row p of the input tile at point t is row 400 t + p of the input array. -/
theorem row_blk0 (c : Dev nD) (t : Fin cfg0.N) (p : Fin 400) (n : Fin 50000) (hn : n.val = 400 * t.val + p.val) :
    rowOf (iblk m c 0 t : FVec Ideal S400x256 .f32) p = rowOf (m ((c : Thread nD τ).loc main_arg0)) n := by
  funext j
  show V m c main_arg0 (((cfg0.win 0).blk t).view.emb (ix2 p j)) = V m c main_arg0 (ix2 n j)
  refine congrArg _ (funext fun a => Fin.ext ?_)
  obtain ⟨e0, e1, -⟩ := idx_facts t
  match a with
  | ⟨0, _⟩ => show win0_0.index t (0 : Fin 2) * 400 + 1 * p.val = n.val; rw [e0, hn]; omega
  | ⟨1, _⟩ => show win0_0.index t (1 : Fin 2) * 256 + 1 * j.val = j.val; rw [e1]; omega

theorem t_lt (t : Fin cfg0.N) : t.val < 125 := by
  have h := t.isLt
  have hN : cfg0.N = 125 := N_0
  omega

/-! ## What each point writes back -/

/-- Point t writes back block t of the coordinates. -/
theorem flushed15_eq (c : Dev nD) (t : Fin cfg0.N) :
    (dats m 0 c).flushed 15 t
      = ((cfg0.win 15).blk t).view.read (Elt Ideal) (relFlat (params m c) (m ((c : Thread nD τ).loc main_arg0))) := by
  show (cfg0.win 15).cut (grid0.coords t) ((dats m 0 c).after 15 t) = _
  rw [after0_15, blk1 m c t, blk2 m c t, blk3 m c t, blk4 m c t, blk5 m c t, blk6 m c t, blk7 m c t, blk8 m c t, blk9 m c t, blk10 m c t, blk11 m c t, blk12 m c t, blk13 m c t, blk14 m c t]
  funext y
  have ht := t_lt t
  obtain ⟨-, -, e0, e1, -⟩ := idx_facts t
  have hy0 : (y 0).val < 400 := (y 0).isLt
  refine (Payload.out0_15_apply (params m c) (iblk m c 0 t) y).trans ?_
  rw [row_blk0 m c t ⟨(y 0).val, idx2_lt0 y⟩ ⟨400 * t.val + (y 0).val, by omega⟩ rfl]
  refine rel_congr _ _ ?_ ?_
  · show 400 * t.val + (y 0).val = win0_15.index t (0 : Fin 2) * 400 + 1 * (y 0).val
    rw [e0]; omega
  · show (y 1).val = win0_15.index t (1 : Fin 2) * 24 + 1 * (y 1).val
    rw [e1]; omega

/-- Point t writes back block t of the decoded rows. -/
theorem flushed16_eq (c : Dev nD) (t : Fin cfg0.N) :
    (dats m 0 c).flushed 16 t
      = ((cfg0.win 16).blk t).view.read (Elt Ideal) (decodedAll (params m c) (m ((c : Thread nD τ).loc main_arg0))) := by
  show (cfg0.win 16).cut (grid0.coords t) ((dats m 0 c).after 16 t) = _
  rw [after0_16, blk1 m c t, blk2 m c t, blk3 m c t, blk4 m c t, blk5 m c t, blk6 m c t, blk7 m c t, blk8 m c t, blk9 m c t, blk10 m c t, blk11 m c t, blk12 m c t, blk13 m c t, blk14 m c t]
  funext y
  have ht := t_lt t
  obtain ⟨-, -, -, -, e0, e1⟩ := idx_facts t
  have hy0 : (y 0).val < 3200 := (y 0).isLt
  refine (Payload.out0_16_apply (params m c) (iblk m c 0 t) y).trans ?_
  rw [row_blk0 m c t ⟨(y 0).val / 8, by omega⟩ ⟨400 * t.val + (y 0).val / 8, by omega⟩ rfl]
  refine decoded_congr _ _ ?_ ?_ ?_
  · show 400 * t.val + (y 0).val / 8 = (win0_16.index t (0 : Fin 2) * 3200 + 1 * (y 0).val) / 8
    rw [e0]; omega
  · show (y 0).val % 8 = (win0_16.index t (0 : Fin 2) * 3200 + 1 * (y 0).val) % 8
    rw [e0]; omega
  · show (y 1).val = win0_16.index t (1 : Fin 2) * 256 + 1 * (y 1).val
    rw [e1]; omega

/-! ## The blocks tile the arrays -/

/-- An index of the array lies in point t's block iff each coordinate lies in the block's range on its axis. -/
theorem mem_blk15 (t : Fin cfg0.N) (i : S50000x24.Idx) :
    i ∈ ((cfg0.win 15).blk t).view.set ↔ ∀ a : Fin 2, win0_15.index t a * S400x24.size a ≤ (i a).val
      ∧ (i a).val < win0_15.index t a * S400x24.size a + S400x24.size a := by
  show i ∈ ((View.whole main_v0_0).slice (win0_15.rect t)).set ↔ _
  rw [View.set_slice_whole, Rect.mem_set_unit]
  exact Iff.rfl

/-- Row r lies in the block of point r / 400: the blocks tile the array. -/
theorem cover15 (i : S50000x24.Idx) :
    ∃ t : Fin cfg0.N, (cfg0.win 15).flush t = true ∧ i ∈ ((cfg0.win 15).blk t).view.set := by
  have hi0 : (i 0).val < 50000 := idx2_lt0 i
  have hi1 : (i 1).val < 24 := idx2_lt1 i
  have hN : (i 0).val / 400 < cfg0.N := by
    have hN' : cfg0.N = 125 := N_0
    omega
  have e0 : win0_15.index ⟨(i 0).val / 400, hN⟩ (0 : Fin 2) = (i 0).val / 400 := (idx_facts ⟨(i 0).val / 400, hN⟩).2.2.1
  have e1 : win0_15.index ⟨(i 0).val / 400, hN⟩ (1 : Fin 2) = 0 := (idx_facts ⟨(i 0).val / 400, hN⟩).2.2.2.1
  refine ⟨⟨(i 0).val / 400, hN⟩, flush0_15 _, ?_⟩
  rw [mem_blk15]
  intro a
  match a with
  | ⟨0, _⟩ =>
    show win0_15.index ⟨(i 0).val / 400, hN⟩ (0 : Fin 2) * 400 ≤ (i 0).val
      ∧ (i 0).val < win0_15.index ⟨(i 0).val / 400, hN⟩ (0 : Fin 2) * 400 + 400
    rw [e0]; omega
  | ⟨1, _⟩ =>
    show win0_15.index ⟨(i 0).val / 400, hN⟩ (1 : Fin 2) * 24 ≤ (i 1).val
      ∧ (i 1).val < win0_15.index ⟨(i 0).val / 400, hN⟩ (1 : Fin 2) * 24 + 24
    rw [e1]; omega

/-- An index of the array lies in point t's block iff each coordinate lies in the block's range on its axis. -/
theorem mem_blk16 (t : Fin cfg0.N) (i : S400000x256.Idx) :
    i ∈ ((cfg0.win 16).blk t).view.set ↔ ∀ a : Fin 2, win0_16.index t a * S3200x256.size a ≤ (i a).val
      ∧ (i a).val < win0_16.index t a * S3200x256.size a + S3200x256.size a := by
  show i ∈ ((View.whole main_v0_1).slice (win0_16.rect t)).set ↔ _
  rw [View.set_slice_whole, Rect.mem_set_unit]
  exact Iff.rfl

/-- Row r lies in the block of point r / 3200: the blocks tile the array. -/
theorem cover16 (i : S400000x256.Idx) :
    ∃ t : Fin cfg0.N, (cfg0.win 16).flush t = true ∧ i ∈ ((cfg0.win 16).blk t).view.set := by
  have hi0 : (i 0).val < 400000 := idx2_lt0 i
  have hi1 : (i 1).val < 256 := idx2_lt1 i
  have hN : (i 0).val / 3200 < cfg0.N := by
    have hN' : cfg0.N = 125 := N_0
    omega
  have e0 : win0_16.index ⟨(i 0).val / 3200, hN⟩ (0 : Fin 2) = (i 0).val / 3200 := (idx_facts ⟨(i 0).val / 3200, hN⟩).2.2.2.2.1
  have e1 : win0_16.index ⟨(i 0).val / 3200, hN⟩ (1 : Fin 2) = 0 := (idx_facts ⟨(i 0).val / 3200, hN⟩).2.2.2.2.2
  refine ⟨⟨(i 0).val / 3200, hN⟩, flush0_16 _, ?_⟩
  rw [mem_blk16]
  intro a
  match a with
  | ⟨0, _⟩ =>
    show win0_16.index ⟨(i 0).val / 3200, hN⟩ (0 : Fin 2) * 3200 ≤ (i 0).val
      ∧ (i 0).val < win0_16.index ⟨(i 0).val / 3200, hN⟩ (0 : Fin 2) * 3200 + 3200
    rw [e0]; omega
  | ⟨1, _⟩ =>
    show win0_16.index ⟨(i 0).val / 3200, hN⟩ (1 : Fin 2) * 256 ≤ (i 1).val
      ∧ (i 1).val < win0_16.index ⟨(i 0).val / 3200, hN⟩ (1 : Fin 2) * 256 + 256
    rw [e1]; omega

/-- The coordinates array after the region. -/
theorem final15 (c : Dev nD) :
    (dats m 0 c).arrAt 15 cfg0.N = relFlat (params m c) (m ((c : Thread nD τ).loc main_arg0)) :=
  (dats m 0 c).arrAt_eq_of_cover 15 _ (fun t _ => flushed15_eq m c t) cover15

/-- The decoded array after the region. -/
theorem final16 (c : Dev nD) :
    (dats m 0 c).arrAt 16 cfg0.N = decodedAll (params m c) (m ((c : Thread nD τ).loc main_arg0)) :=
  (dats m 0 c).arrAt_eq_of_cover 16 _ (fun t _ => flushed16_eq m c t) cover16

/-! ## After the region -/

/-- The coordinates [50000, 24] re-laid row-major to [400000, 3]: row r = 8 n + k holds coordinates 3 k … 3 k + 2 of node n. -/
theorem relay (P : Params) (X : FVec Ideal ⟨2, ![50000, 256]⟩ .f32)
    (h : (⟨2, ![50000, 24]⟩ : Shape).ShapeCasts ⟨2, ![400000, 3]⟩) :
    (fun i => shapeCast ⟨2, ![400000, 3]⟩ (relFlat P X) h i) = relPoints P X := by
  funext i
  have hi0 : (i 0).val < 400000 := idx2_lt0 i
  have hi1 : (i 1).val < 3 := idx2_lt1 i
  refine (shapeCast_apply (relFlat P X) h i
    (ix2 (⟨(i 0).val / 8, by omega⟩ : Fin 50000) (⟨3 * ((i 0).val % 8) + (i 1).val, by omega⟩ : Fin 24)) ?_).trans ?_
  · rw [Shape.rowMajor_val_two, Shape.rowMajor_val_two]
    show (i 0).val / 8 * 24 + (3 * ((i 0).val % 8) + (i 1).val) = (i 0).val * 3 + (i 1).val
    omega
  · rfl

/-- The node number of every point as the program writes it: 0 … 49999, each repeated eight times. -/
def nodeNumbers : IVec S400000 32 :=
  shapeCast S400000 (broadcastInDim S50000x8 ![0] bcast_S50000_S50000x8_0 (iotaInDim S50000 32 0)) shapeCasts_S50000x8_S400000

/-- After the lines that follow the region, the first result is the re-laid coordinates array. -/
theorem tail_v1 (c : Dev nD) :
    Pipeline.afterTail₀ cfgs (dats m) 0 (V0 m) [hostOps1] c main_v1
      = fun i => shapeCast S400000x3 ((dats m 0 c).arrAt 15 cfg0.N) shapeCasts_S50000x24_S400000x3 i := by
  unfold Pipeline.afterTail₀
  show StableHlo.after hostOps1 _ (Proc.devRef .tc main_v1) = _
  after_results
  rw [Pipeline.withArrays_arr spec0 launch0.win.arr_inj c _ _ 15]
  rfl

/-- And the third result is the node numbers. -/
theorem tail_v4 (c : Dev nD) :
    Pipeline.afterTail₀ cfgs (dats m) 0 (V0 m) [hostOps1] c main_v4 = fun i => nodeNumbers i := by
  unfold Pipeline.afterTail₀
  show StableHlo.after hostOps1 _ (Proc.devRef .tc main_v4) = _
  after_results
  rfl

/-! ## The run, read -/

/-- Every weakly fair execution ends with the three results at the specification of the launched arrays, and the
    arguments unchanged. -/
theorem run : θ_run defs (onTc (τ := τ) (main (F := Ideal))) ⟨m, fun _ => 0, ρ⟩ fun r => ∀ c : Dev nD,
      r.2.mem ((c : Thread nD τ).loc main_v1) = relPoints (params m c) (m ((c : Thread nD τ).loc main_arg0))
      ∧ r.2.mem ((c : Thread nD τ).loc main_v0_1) = decodedAll (params m c) (m ((c : Thread nD τ).loc main_arg0))
      ∧ r.2.mem ((c : Thread nD τ).loc main_v4) = nodeNumbers
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨
      ((h c).2 main_v1 (Pipeline.mem_restRefs_of main_v1 rfl (by decide))).trans
        ((tail_v1 m c).trans ((congrArg (fun A => fun i => shapeCast S400000x3 A shapeCasts_S50000x24_S400000x3 i) (final15 m c)).trans
          (relay (params m c) (m ((c : Thread nD τ).loc main_arg0)) shapeCasts_S50000x24_S400000x3))),
      ((h c).1 16).trans (final16 m c),
      ((h c).2 main_v4 (Pipeline.mem_restRefs_of main_v4 rfl (by decide))).trans (tail_v4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.KernelIdeal.KValue

end
-- ==== Proof.RefStages.lean ====
/-
  The reference program's operations, grouped into the stages of the decoder and named: each affine layer with its
  positive part over all rows at once, the point coordinates re-laid from [50000, 24] to [400000, 3], the node number
  of every point, the rows of a matrix taken at those node numbers, the three pieces laid side by side, and the whole
  composition from the fifteen argument arrays to the three results.
-/
import proofs.«146410_j38044820308123_2_alg».proof.Proof.Gen.ReferenceIdeal
import proofs.«146410_j38044820308123_2_alg».proof.Proof.Spec

noncomputable section

namespace Cert.ReferenceIdeal.Stages

open Idealize.ShloMosaic Cert.ReferenceIdeal Cert.ReferenceIdeal.Facts₀

/-- First hidden layer over all nodes: the positive part of x · W + b. -/
def h0 (x : FVec Ideal S50000x256 .f32) (W : FVec Ideal S256x256 .f32) (b : FVec Ideal S256 .f32) : FVec Ideal S50000x256 .f32 :=
  maximumf (addf (Host.dotGeneral dot_S50000x256_S256x256_S50000x256_1_0_0_1_n_n none x W)
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- Second hidden layer over all nodes. -/
def h1 (x : FVec Ideal S50000x256 .f32) (W : FVec Ideal S256x128 .f32) (b : FVec Ideal S128 .f32) : FVec Ideal S50000x128 .f32 :=
  maximumf (addf (Host.dotGeneral dot_S50000x256_S256x128_S50000x128_1_0_0_1_n_n none x W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The global features of all nodes. -/
def feats (x : FVec Ideal S50000x128 .f32) (W : FVec Ideal S128x64 .f32) (b : FVec Ideal S64 .f32) : FVec Ideal S50000x64 .f32 :=
  maximumf (addf (Host.dotGeneral dot_S50000x128_S128x64_S50000x64_1_0_0_1_n_n none x W)
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The 24 point coordinates of all nodes: x · W + b, no positive part. -/
def rel (x : FVec Ideal S50000x64 .f32) (W : FVec Ideal S64x24 .f32) (b : FVec Ideal S24 .f32) : FVec Ideal S50000x24 .f32 :=
  addf (Host.dotGeneral dot_S50000x64_S64x24_S50000x24_1_0_0_1_n_n none x W)
      (broadcastInDim S50000x24 ![0, 1] bcast_S1x24_S50000x24_0_1 (broadcastInDim S1x24 ![1] bcast_S24_S1x24_1 b))

/-- The point coordinates re-laid row-major from [50000, 24] to [400000, 3]. -/
def relPts (r : FVec Ideal S50000x24 .f32) : FVec Ideal S400000x3 .f32 :=
  shapeCast S400000x3 r shapeCasts_S50000x24_S400000x3

/-- The node number of every point: 0 … 49999, each repeated 8 times. -/
def clusterIdx : IVec S400000 32 :=
  shapeCast S400000 (broadcastInDim S50000x8 ![0] bcast_S50000_S50000x8_0 (iotaInDim S50000 32 0)) shapeCasts_S50000x8_S400000

/-- Row numbers made a column, a negative one first moved up by the number of rows. -/
def wrapped (idx : IVec S400000 32) : IVec S400000x1 32 :=
  broadcastInDim S400000x1 ![0] bcast_S400000_S400000x1_0
    (select (cmpi .slt idx (broadcastInDim S400000 ![] bcast_S_S400000 (constantI S_ 32 0#32)))
      (addi idx (broadcastInDim S400000 ![] bcast_S_S400000 (constantI S_ 32 50000#32))) idx)

/-- Whether each row number of the column lies in 0 … 49999. -/
def inRange (v : IVec S400000x1 32) : IVec S400000 1 :=
  Host.reduce IntOp.andi
    (andi (cmpi .sge v (broadcastInDim S400000x1 ![] bcast_S_S400000x1 (constantI S_ 32 0#32)))
      (cmpi .sle v (broadcastInDim S400000x1 ![0, 1] bcast_S1x1_S400000x1_0_1
        (broadcastInDim S1x1 ![1] bcast_S1_S1x1_1 (constantI S1 32 49999#32)))))
    (constantI S_ 1 1#1) reducesTo_S400000x1_S400000_d1 h_S_

/-- Rows of `src` taken at the row numbers `idx`: the gathered row where the row number is in range, a fill value elsewhere. -/
def take64 (src : FVec Ideal S50000x64 .f32) (idx : IVec S400000 32) : FVec Ideal S400000x64 .f32 :=
  select (broadcastInDim S400000x64 ![0] bcast_S400000_S400000x64_0 (inRange (wrapped idx)))
    (Host.gather gather_S50000x64_S400000x1_S400000x64_1_0_n_n_0_1_164 src (wrapped idx))
    (broadcastInDim S400000x64 ![] bcast_S_S400000x64 (constant S_ .f32 0x7FC00000#32))

/-- Rows of `src` taken at the row numbers `idx`: the gathered row where the row number is in range, a fill value elsewhere. -/
def take256 (src : FVec Ideal S50000x256 .f32) (idx : IVec S400000 32) : FVec Ideal S400000x256 .f32 :=
  select (broadcastInDim S400000x256 ![0] bcast_S400000_S400000x256_0 (inRange (wrapped idx)))
    (Host.gather gather_S50000x256_S400000x1_S400000x256_1_0_n_n_0_1_1256 src (wrapped idx))
    (broadcastInDim S400000x256 ![] bcast_S_S400000x256 (constant S_ .f32 0x7FC00000#32))

/-- A point's input row: the node's row, its features, the point's coordinates, side by side. -/
def catIn (a : FVec Ideal S400000x256 .f32) (f : FVec Ideal S400000x64 .f32) (r : FVec Ideal S400000x3 .f32) :
    FVec Ideal S400000x323 .f32 :=
  concatenate S400000x323 1 [⟨S400000x256, a⟩, ⟨S400000x64, f⟩, ⟨S400000x3, r⟩]
    concatenates_S400000x256_S400000x64_S400000x3_S400000x323_d1

/-- First point layer over all points. -/
def p0 (x : FVec Ideal S400000x323 .f32) (W : FVec Ideal S323x256 .f32) (b : FVec Ideal S256 .f32) : FVec Ideal S400000x256 .f32 :=
  maximumf (addf (Host.dotGeneral dot_S400000x323_S323x256_S400000x256_1_0_0_1_n_n none x W)
      (broadcastInDim S400000x256 ![0, 1] bcast_S1x256_S400000x256_0_1 (broadcastInDim S1x256 ![1] bcast_S256_S1x256_1 b)))
    (broadcastInDim S400000x256 ![] bcast_S_S400000x256 (constant S_ .f32 0x00000000#32))

/-- Second and third point layers over all points (the same shape). -/
def p12 (x : FVec Ideal S400000x256 .f32) (W : FVec Ideal S256x256 .f32) (b : FVec Ideal S256 .f32) : FVec Ideal S400000x256 .f32 :=
  maximumf (addf (Host.dotGeneral dot_S400000x256_S256x256_S400000x256_1_0_0_1_n_n none x W)
      (broadcastInDim S400000x256 ![0, 1] bcast_S1x256_S400000x256_0_1 (broadcastInDim S1x256 ![1] bcast_S256_S1x256_1 b)))
    (broadcastInDim S400000x256 ![] bcast_S_S400000x256 (constant S_ .f32 0x00000000#32))

open Cert.Decoder in
/-- The global features of all nodes, from the input array and the weights. -/
def featsOut (P : Params) (X : FVec Ideal S50000x256 .f32) : FVec Ideal S50000x64 .f32 :=
  feats (h1 (h0 X P.Wg0 P.bg0) P.Wg1 P.bg1) P.Wg2 P.bg2

open Cert.Decoder in
/-- The reference's first result. -/
def relOut (P : Params) (X : FVec Ideal S50000x256 .f32) : FVec Ideal S400000x3 .f32 :=
  relPts (rel (featsOut P X) P.Wdec P.bdec)

open Cert.Decoder in
/-- The reference's second result. -/
def decOut (P : Params) (X : FVec Ideal S50000x256 .f32) : FVec Ideal S400000x256 .f32 :=
  p12 (p12 (p0 (catIn (take256 X clusterIdx) (take64 (featsOut P X) clusterIdx) (relOut P X)) P.W0 P.b0) P.W1 P.b1) P.W2 P.b2

end Cert.ReferenceIdeal.Stages

end
-- ==== Proof.RefOps.lean ====
/-
  The reference program as one list of operations.

  The reference is a straight line of tensor operations: four affine layers over the 50000 nodes (a matrix product,
  the bias row added, the positive part for the first three), the 24 coordinates re-laid as 8 points of 3, the node
  number of every point, the node rows and the feature rows taken at those node numbers, the three pieces laid side by
  side, and three more affine layers with positive parts over the 400000 points. Its helper functions (the positive
  part, the row selection and the choice inside it) are written out at their calls, each over that call's own buffers,
  so the whole program is ONE list of 97 operations, each touching buffers of the one core only.
-/
import proofs.«146410_j38044820308123_2_alg».proof.Proof.RefStages
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

/-- The program's 97 operations, in order, each helper function's operations written at its call over that call's
    buffers: the positive part is three (the zero, its broadcast, the maximum), the row selection twenty-three (the
    negative-row-number wrap with its choice, the column of row numbers, the range test folded along the column, the
    gathered rows, the fill value, the final choice). -/
abbrev ops : List (HloOp τ sig (Elt F)) :=
  [
    StableHlo.binary main_arg0 main_arg1 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg2 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S50000x256 ![0, 1] bcast_S1x256_S50000x256_0_1 : (⟨S1x256, .f32⟩ : BufTy).Contents (Elt F) → (⟨S50000x256, .f32⟩ : BufTy).Contents (Elt F)),
    StableHlo.binary main_v0 main_v2 main_v3 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v3 : StableHlo.TRef sig ⟨S50000x256, .f32⟩) main_call0.v0 main_call0.v1 maximumf,
    StableHlo.binary main_v4 main_arg3 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v8 : StableHlo.TRef sig ⟨S50000x128, .f32⟩) main_call1.v0 main_call1.v1 maximumf,
    StableHlo.binary main_v9 main_arg5 main_v10 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg6 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S50000x64 ![0, 1] bcast_S1x64_S50000x64_0_1 : (⟨S1x64, .f32⟩ : BufTy).Contents (Elt F) → (⟨S50000x64, .f32⟩ : BufTy).Contents (Elt F)),
    StableHlo.binary main_v10 main_v12 main_v13 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v13 : StableHlo.TRef sig ⟨S50000x64, .f32⟩) main_call2.v0 main_call2.v1 maximumf,
    StableHlo.binary main_v14 main_arg7 main_v15 ((fun l r => Host.dotGeneral dot_S50000x64_S64x24_S50000x24_1_0_0_1_n_n none l r) : (⟨S50000x64, .f32⟩ : BufTy).Contents (Elt F) → (⟨S64x24, .f32⟩ : BufTy).Contents (Elt F) → (⟨S50000x24, .f32⟩ : BufTy).Contents (Elt F)),
    StableHlo.unary main_arg8 main_v16 (broadcastInDim S1x24 ![1] bcast_S24_S1x24_1 : (⟨S24, .f32⟩ : BufTy).Contents (Elt F) → (⟨S1x24, .f32⟩ : BufTy).Contents (Elt F)),
    StableHlo.unary main_v16 main_v17 (broadcastInDim S50000x24 ![0, 1] bcast_S1x24_S50000x24_0_1 : (⟨S1x24, .f32⟩ : BufTy).Contents (Elt F) → (⟨S50000x24, .f32⟩ : BufTy).Contents (Elt F)),
    StableHlo.binary main_v15 main_v17 main_v18 (addf : (⟨S50000x24, .f32⟩ : BufTy).Contents (Elt F) → (⟨S50000x24, .f32⟩ : BufTy).Contents (Elt F) → (⟨S50000x24, .f32⟩ : BufTy).Contents (Elt F)),
    StableHlo.reshape main_v18 main_v19 rfl shapeCasts_S50000x24_S400000x3,
    StableHlo.nullary main_v20 (iotaInDim S50000 32 0),
    StableHlo.unary main_v20 main_v21 (broadcastInDim S50000x8 ![0] bcast_S50000_S50000x8_0 : (⟨S50000, .i32⟩ : BufTy).Contents (Elt F) → (⟨S50000x8, .i32⟩ : BufTy).Contents (Elt F)),
    StableHlo.reshape main_v21 main_v22 rfl shapeCasts_S50000x8_S400000,
    StableHlo.TRef.nullary main_call3.c (constantI S_ 32 0#32),
    StableHlo.TRef.unary main_call3.c main_call3.v0 (broadcastInDim S400000 ![] bcast_S_S400000),
    StableHlo.TRef.binary (.of main_v22 : StableHlo.TRef sig ⟨S400000, .i32⟩) main_call3.v0 main_call3.v1 (cmpi .slt),
    StableHlo.TRef.nullary main_call3.c_0 (constantI S_ 32 50000#32),
    StableHlo.TRef.unary main_call3.c_0 main_call3.v2 (broadcastInDim S400000 ![] bcast_S_S400000),
    StableHlo.TRef.binary (.of main_v22 : StableHlo.TRef sig ⟨S400000, .i32⟩) main_call3.v2 main_call3.v3 addi,
    StableHlo.TRef.ternary main_call3.v1 main_call3.v3 (.of main_v22 : StableHlo.TRef sig ⟨S400000, .i32⟩) main_call3.call0.v0 select,
    StableHlo.TRef.unary main_call3.call0.v0 main_call3.v5 (broadcastInDim S400000x1 ![0] bcast_S400000_S400000x1_0),
    StableHlo.TRef.nullary main_call3.c_1 (constantI S1 32 49999#32),
    StableHlo.TRef.nullary main_call3.c_2 (constantI S_ 32 0#32),
    StableHlo.TRef.unary main_call3.c_2 main_call3.v6 (broadcastInDim S400000x1 ![] bcast_S_S400000x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S400000x1 ![0, 1] bcast_S1x1_S400000x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S400000x1_S400000_d1 h_S_),
    StableHlo.TRef.binary (.of main_v14 : StableHlo.TRef sig ⟨S50000x64, .f32⟩) main_call3.v5 main_call3.v13 (fun x i => Host.gather gather_S50000x64_S400000x1_S400000x64_1_0_n_n_0_1_164 x i),
    StableHlo.TRef.unary main_call3.v12 main_call3.v14 (broadcastInDim S400000x64 ![0] bcast_S400000_S400000x64_0),
    StableHlo.TRef.nullary main_call3.cst (constant S_ .f32 0x7FC00000#32),
    StableHlo.TRef.unary main_call3.cst main_call3.v15 (broadcastInDim S400000x64 ![] bcast_S_S400000x64),
    StableHlo.TRef.ternary main_call3.v14 main_call3.v13 main_call3.v15 main_call3.v16 select,
    StableHlo.TRef.nullary main_call4.c (constantI S_ 32 0#32),
    StableHlo.TRef.unary main_call4.c main_call4.v0 (broadcastInDim S400000 ![] bcast_S_S400000),
    StableHlo.TRef.binary (.of main_v22 : StableHlo.TRef sig ⟨S400000, .i32⟩) main_call4.v0 main_call4.v1 (cmpi .slt),
    StableHlo.TRef.nullary main_call4.c_0 (constantI S_ 32 50000#32),
    StableHlo.TRef.unary main_call4.c_0 main_call4.v2 (broadcastInDim S400000 ![] bcast_S_S400000),
    StableHlo.TRef.binary (.of main_v22 : StableHlo.TRef sig ⟨S400000, .i32⟩) main_call4.v2 main_call4.v3 addi,
    StableHlo.TRef.ternary main_call4.v1 main_call4.v3 (.of main_v22 : StableHlo.TRef sig ⟨S400000, .i32⟩) main_call4.call0.v0 select,
    StableHlo.TRef.unary main_call4.call0.v0 main_call4.v5 (broadcastInDim S400000x1 ![0] bcast_S400000_S400000x1_0),
    StableHlo.TRef.nullary main_call4.c_1 (constantI S1 32 49999#32),
    StableHlo.TRef.nullary main_call4.c_2 (constantI S_ 32 0#32),
    StableHlo.TRef.unary main_call4.c_2 main_call4.v6 (broadcastInDim S400000x1 ![] bcast_S_S400000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S400000x1 ![0, 1] bcast_S1x1_S400000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S400000x1_S400000_d1 h_S_),
    StableHlo.TRef.binary (.of main_arg0 : StableHlo.TRef sig ⟨S50000x256, .f32⟩) main_call4.v5 main_call4.v13 (fun x i => Host.gather gather_S50000x256_S400000x1_S400000x256_1_0_n_n_0_1_1256 x i),
    StableHlo.TRef.unary main_call4.v12 main_call4.v14 (broadcastInDim S400000x256 ![0] bcast_S400000_S400000x256_0),
    StableHlo.TRef.nullary main_call4.cst (constant S_ .f32 0x7FC00000#32),
    StableHlo.TRef.unary main_call4.cst main_call4.v15 (broadcastInDim S400000x256 ![] bcast_S_S400000x256),
    StableHlo.TRef.ternary main_call4.v14 main_call4.v13 main_call4.v15 main_call4.v16 select,
    StableHlo.nary ![main_v24, main_v23, main_v19] main_v25 (fun u => concatenate S400000x323 1 [⟨S400000x256, u 0⟩, ⟨S400000x64, u 1⟩, ⟨S400000x3, u 2⟩] concatenates_S400000x256_S400000x64_S400000x3_S400000x323_d1),
    StableHlo.binary main_v25 main_arg9 main_v26 ((fun l r => Host.dotGeneral dot_S400000x323_S323x256_S400000x256_1_0_0_1_n_n none l r) : (⟨S400000x323, .f32⟩ : BufTy).Contents (Elt F) → (⟨S323x256, .f32⟩ : BufTy).Contents (Elt F) → (⟨S400000x256, .f32⟩ : BufTy).Contents (Elt F)),
    StableHlo.unary main_arg10 main_v27 (broadcastInDim S1x256 ![1] bcast_S256_S1x256_1 : (⟨S256, .f32⟩ : BufTy).Contents (Elt F) → (⟨S1x256, .f32⟩ : BufTy).Contents (Elt F)),
    StableHlo.unary main_v27 main_v28 (broadcastInDim S400000x256 ![0, 1] bcast_S1x256_S400000x256_0_1 : (⟨S1x256, .f32⟩ : BufTy).Contents (Elt F) → (⟨S400000x256, .f32⟩ : BufTy).Contents (Elt F)),
    StableHlo.binary main_v26 main_v28 main_v29 (addf : (⟨S400000x256, .f32⟩ : BufTy).Contents (Elt F) → (⟨S400000x256, .f32⟩ : BufTy).Contents (Elt F) → (⟨S400000x256, .f32⟩ : BufTy).Contents (Elt F)),
    StableHlo.TRef.nullary main_call5.cst (constant S_ .f32 0x00000000#32),
    StableHlo.TRef.unary main_call5.cst main_call5.v0 (broadcastInDim S400000x256 ![] bcast_S_S400000x256),
    StableHlo.TRef.binary (.of main_v29 : StableHlo.TRef sig ⟨S400000x256, .f32⟩) main_call5.v0 main_call5.v1 maximumf,
    StableHlo.binary main_v30 main_arg11 main_v31 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg12 main_v32 (broadcastInDim S1x256 ![1] bcast_S256_S1x256_1 : (⟨S256, .f32⟩ : BufTy).Contents (Elt F) → (⟨S1x256, .f32⟩ : BufTy).Contents (Elt F)),
    StableHlo.unary main_v32 main_v33 (broadcastInDim S400000x256 ![0, 1] bcast_S1x256_S400000x256_0_1 : (⟨S1x256, .f32⟩ : BufTy).Contents (Elt F) → (⟨S400000x256, .f32⟩ : BufTy).Contents (Elt F)),
    StableHlo.binary main_v31 main_v33 main_v34 (addf : (⟨S400000x256, .f32⟩ : BufTy).Contents (Elt F) → (⟨S400000x256, .f32⟩ : BufTy).Contents (Elt F) → (⟨S400000x256, .f32⟩ : BufTy).Contents (Elt F)),
    StableHlo.TRef.nullary main_call6.cst (constant S_ .f32 0x00000000#32),
    StableHlo.TRef.unary main_call6.cst main_call6.v0 (broadcastInDim S400000x256 ![] bcast_S_S400000x256),
    StableHlo.TRef.binary (.of main_v34 : StableHlo.TRef sig ⟨S400000x256, .f32⟩) main_call6.v0 main_call6.v1 maximumf,
    StableHlo.binary main_v35 main_arg13 main_v36 ((fun l r => Host.dotGeneral dot_S400000x256_S256x256_S400000x256_1_0_0_1_n_n none l r) : (⟨S400000x256, .f32⟩ : BufTy).Contents (Elt F) → (⟨S256x256, .f32⟩ : BufTy).Contents (Elt F) → (⟨S400000x256, .f32⟩ : BufTy).Contents (Elt F)),
    StableHlo.unary main_arg14 main_v37 (broadcastInDim S1x256 ![1] bcast_S256_S1x256_1 : (⟨S256, .f32⟩ : BufTy).Contents (Elt F) → (⟨S1x256, .f32⟩ : BufTy).Contents (Elt F)),
    StableHlo.unary main_v37 main_v38 (broadcastInDim S400000x256 ![0, 1] bcast_S1x256_S400000x256_0_1 : (⟨S1x256, .f32⟩ : BufTy).Contents (Elt F) → (⟨S400000x256, .f32⟩ : BufTy).Contents (Elt F)),
    StableHlo.binary main_v36 main_v38 main_v39 (addf : (⟨S400000x256, .f32⟩ : BufTy).Contents (Elt F) → (⟨S400000x256, .f32⟩ : BufTy).Contents (Elt F) → (⟨S400000x256, .f32⟩ : BufTy).Contents (Elt F)),
    StableHlo.TRef.nullary main_call7.cst (constant S_ .f32 0x00000000#32),
    StableHlo.TRef.unary main_call7.cst main_call7.v0 (broadcastInDim S400000x256 ![] bcast_S_S400000x256),
    StableHlo.TRef.binary (.of main_v39 : StableHlo.TRef sig ⟨S400000x256, .f32⟩) main_call7.v0 main_call7.v1 maximumf ]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., reshape_bufs_sub .., nullary_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub ..⟩

/-- The fourteen weight arrays a device holds, read off its buffers' contents in argument order. -/
def paramsV (V : Valuation τ sig (Elt Ideal)) : Cert.Decoder.Params :=
  ⟨V (main_arg1 : DevRef τ sig), V (main_arg2 : DevRef τ sig), V (main_arg3 : DevRef τ sig), V (main_arg4 : DevRef τ sig), V (main_arg5 : DevRef τ sig), V (main_arg6 : DevRef τ sig), V (main_arg7 : DevRef τ sig), V (main_arg8 : DevRef τ sig), V (main_arg9 : DevRef τ sig), V (main_arg10 : DevRef τ sig), V (main_arg11 : DevRef τ sig), V (main_arg12 : DevRef τ sig), V (main_arg13 : DevRef τ sig), V (main_arg14 : DevRef τ sig)⟩

end Cert.ReferenceIdeal.RefRun

end
-- ==== Proof.RefSeq.lean ====
/-
  The reference program is its list of operations run in order: the helper functions' bodies substituted at their
  calls, and the calls' buffer records read at their fields, both sides are the same chain of operation steps.
-/
import proofs.«146410_j38044820308123_2_alg».proof.Proof.RefOps

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]

set_option maxRecDepth 16384 in
set_option maxHeartbeats 1000000 in
/-- The program is the list, run in order. -/
theorem main_eq (c : Dev nD) : main (F := F) c = seq ops := rfl

end Cert.ReferenceIdeal.RefRun

end
-- ==== Proof.LibNary3.lean ====
/-
  An operation with three operands, given as a literal family of three buffers: what its result buffer holds
  afterwards, with each operand's contents read AT ITS OWN buffer (rather than through the family under a binder),
  so that the operands' own histories can go on being unfolded.
-/
import Idealize.ShloMosaic.Lib.StableHlo.Run

noncomputable section

namespace Idealize.ShloMosaic.StableHlo

variable {τ : Topo} {sig : RefSig} {Val : EltTy → Type} {x a b y : Ref sig .tc}

/-- After an operation over the literal family of three buffers `![x, a, b]`, the result buffer holds the operation's
    function of the three contents, each read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for rewriting in one pass: the result buffer is matched whatever its spelling. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a list of operations, by ONE rewriting pass: each operation's result at its own buffer is
    its function of its operands' contents, at any other buffer what was there (the two buffers told apart by
    computation), a three-operand operation's operands each read at its own buffer. -/
macro "after_results_simp3" : tactic =>
  `(tactic| (simp (disch := decide) only [after_cons, after_nil,
      nullary_result', unary_result', binary_result', ternary_result', quaternary_result', reshape_result', nary3_result',
      nary4_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefValues.lean ====
/-
  What the buffers hold after the reference's 97 operations, the short ones: the node number of every point, the point
  coordinates, and each of the fifteen argument arrays, which no operation writes.
-/
import proofs.«146410_j38044820308123_2_alg».proof.Proof.RefOps
import proofs.«146410_j38044820308123_2_alg».proof.Proof.LibNary3

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

attribute [local irreducible] Host.reduce Host.gather

set_option maxRecDepth 16384 in
/-- The third result: the node number of every point. -/
theorem v22_eq (V : Valuation τ sig (Elt Ideal)) :
    after (ops (F := Ideal)) V (main_v22 : DevRef τ sig) = Stages.clusterIdx := by
  after_results_simp3
  rfl

set_option maxRecDepth 16384 in
/-- The first result: the point coordinates, from the input array and the weights. -/
theorem v19_eq (V : Valuation τ sig (Elt Ideal)) :
    after (ops (F := Ideal)) V (main_v19 : DevRef τ sig) = Stages.relOut (paramsV V) (V (main_arg0 : DevRef τ sig)) := by
  after_results_simp3
  rfl

/-- Argument 0 is written by no operation. -/
theorem arg0_eq (V : Valuation τ sig (Elt Ideal)) :
    after (ops (F := Ideal)) V (main_arg0 : DevRef τ sig) = V (main_arg0 : DevRef τ sig) := by
  after_results_simp3

/-- Argument 1 is written by no operation. -/
theorem arg1_eq (V : Valuation τ sig (Elt Ideal)) :
    after (ops (F := Ideal)) V (main_arg1 : DevRef τ sig) = V (main_arg1 : DevRef τ sig) := by
  after_results_simp3

/-- Argument 2 is written by no operation. -/
theorem arg2_eq (V : Valuation τ sig (Elt Ideal)) :
    after (ops (F := Ideal)) V (main_arg2 : DevRef τ sig) = V (main_arg2 : DevRef τ sig) := by
  after_results_simp3

/-- Argument 3 is written by no operation. -/
theorem arg3_eq (V : Valuation τ sig (Elt Ideal)) :
    after (ops (F := Ideal)) V (main_arg3 : DevRef τ sig) = V (main_arg3 : DevRef τ sig) := by
  after_results_simp3

/-- Argument 4 is written by no operation. -/
theorem arg4_eq (V : Valuation τ sig (Elt Ideal)) :
    after (ops (F := Ideal)) V (main_arg4 : DevRef τ sig) = V (main_arg4 : DevRef τ sig) := by
  after_results_simp3

/-- Argument 5 is written by no operation. -/
theorem arg5_eq (V : Valuation τ sig (Elt Ideal)) :
    after (ops (F := Ideal)) V (main_arg5 : DevRef τ sig) = V (main_arg5 : DevRef τ sig) := by
  after_results_simp3

/-- Argument 6 is written by no operation. -/
theorem arg6_eq (V : Valuation τ sig (Elt Ideal)) :
    after (ops (F := Ideal)) V (main_arg6 : DevRef τ sig) = V (main_arg6 : DevRef τ sig) := by
  after_results_simp3

/-- Argument 7 is written by no operation. -/
theorem arg7_eq (V : Valuation τ sig (Elt Ideal)) :
    after (ops (F := Ideal)) V (main_arg7 : DevRef τ sig) = V (main_arg7 : DevRef τ sig) := by
  after_results_simp3

/-- Argument 8 is written by no operation. -/
theorem arg8_eq (V : Valuation τ sig (Elt Ideal)) :
    after (ops (F := Ideal)) V (main_arg8 : DevRef τ sig) = V (main_arg8 : DevRef τ sig) := by
  after_results_simp3

/-- Argument 9 is written by no operation. -/
theorem arg9_eq (V : Valuation τ sig (Elt Ideal)) :
    after (ops (F := Ideal)) V (main_arg9 : DevRef τ sig) = V (main_arg9 : DevRef τ sig) := by
  after_results_simp3

/-- Argument 10 is written by no operation. -/
theorem arg10_eq (V : Valuation τ sig (Elt Ideal)) :
    after (ops (F := Ideal)) V (main_arg10 : DevRef τ sig) = V (main_arg10 : DevRef τ sig) := by
  after_results_simp3

/-- Argument 11 is written by no operation. -/
theorem arg11_eq (V : Valuation τ sig (Elt Ideal)) :
    after (ops (F := Ideal)) V (main_arg11 : DevRef τ sig) = V (main_arg11 : DevRef τ sig) := by
  after_results_simp3

/-- Argument 12 is written by no operation. -/
theorem arg12_eq (V : Valuation τ sig (Elt Ideal)) :
    after (ops (F := Ideal)) V (main_arg12 : DevRef τ sig) = V (main_arg12 : DevRef τ sig) := by
  after_results_simp3

/-- Argument 13 is written by no operation. -/
theorem arg13_eq (V : Valuation τ sig (Elt Ideal)) :
    after (ops (F := Ideal)) V (main_arg13 : DevRef τ sig) = V (main_arg13 : DevRef τ sig) := by
  after_results_simp3

/-- Argument 14 is written by no operation. -/
theorem arg14_eq (V : Valuation τ sig (Elt Ideal)) :
    after (ops (F := Ideal)) V (main_arg14 : DevRef τ sig) = V (main_arg14 : DevRef τ sig) := by
  after_results_simp3

end Cert.ReferenceIdeal.RefRun

end
-- ==== Proof.RefDec.lean ====
/-
  What the decoded-rows buffer holds after the reference's 97 operations: the three point layers over the rows laid side
  by side (the node rows and the feature rows taken at the points' node numbers, and the point coordinates).
-/
import proofs.«146410_j38044820308123_2_alg».proof.Proof.RefOps
import proofs.«146410_j38044820308123_2_alg».proof.Proof.LibNary3

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

attribute [local irreducible] Host.reduce Host.gather

set_option maxRecDepth 16384 in
set_option maxHeartbeats 1000000 in
/-- The second result: the decoded rows, from the input array and the weights. -/
theorem v40_eq (V : Valuation τ sig (Elt Ideal)) :
    after (ops (F := Ideal)) V (main_v40 : DevRef τ sig) = Stages.decOut (paramsV V) (V (main_arg0 : DevRef τ sig)) := by
  after_results_simp3
  rfl

end Cert.ReferenceIdeal.RefRun

end
-- ==== Proof.RefRun.lean ====
/-
  The reference program's run, read back as mathematics: every execution ends with the three result buffers at the
  stages' composition of the argument arrays — the point coordinates, the decoded rows, the node number of every point —
  and with the fifteen argument arrays unchanged.
-/
import proofs.«146410_j38044820308123_2_alg».proof.Proof.RefSeq
import proofs.«146410_j38044820308123_2_alg».proof.Proof.RefValues
import proofs.«146410_j38044820308123_2_alg».proof.Proof.RefDec

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

/-- The fourteen weight arrays device `c` holds at launch, in argument order. -/
def params (m : (ℓ : Loc nD τ sig) → Buf (Elt Ideal) ℓ) (c : Dev nD) : Cert.Decoder.Params :=
  ⟨m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14)⟩

/-- On every device, from any memory with zero counters: every weakly fair execution of the reference terminates with
    the three results at the stages' terms of the arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19) = Stages.relOut (params m c) (m ((c.tc : Thread nD τ).loc main_arg0))
      ∧ r.2.mem ((c.tc : Thread nD τ).loc main_v40) = Stages.decOut (params m c) (m ((c.tc : Thread nD τ).loc main_arg0))
      ∧ r.2.mem ((c.tc : Thread nD τ).loc main_v22) = Stages.clusterIdx
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v19).trans (v19_eq (launchContents m c)),
      (h c main_v40).trans (v40_eq (launchContents m c)),
      (h c main_v22).trans (v22_eq (launchContents m c)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_seq scopedRefs_eq scopedSems_eq defs main (fun _ => ops) main_eq (fun _ => ops_sub) m ρ)

end Cert.ReferenceIdeal.RefRun

end
-- ==== Proof.RefFrame.lean ====
/-
  The reference leaves its fifteen argument arrays as it found them: the frame claim, from the run.
-/
import proofs.«146410_j38044820308123_2_alg».proof.Defs
import proofs.«146410_j38044820308123_2_alg».proof.Proof.Gen.Pre_finite_inputs
import proofs.«146410_j38044820308123_2_alg».proof.Proof.RefRun

noncomputable section

namespace Cert.ReferenceIdeal.RefRun

open Cert.ReferenceIdeal Idealize.ShloMosaic Idealize.SL.Sem

/-- Every execution of the reference terminates with the argument arrays unchanged. -/
theorem frame_ri : Cert.frame_ReferenceIdeal := fun m ρ _ =>
  (θ_run defs _ _).mono (fun _ h c => (h c).2.2.2) (run m ρ)

end Cert.ReferenceIdeal.RefRun

end
-- ==== Proof.RefLayers.lean ====
/-
  One affine layer of the reference read at coordinates. The product of the rows x by the matrix W, plus the bias b
  laid along every row, then the positive part against zero, is, at row n and column q, the positive part of
  (∑ j, x (n, j) · W (j, q)) + b q: the specification's layer applied to row n of x. Proved once for any extents
  and any dimension numbers of the plain rows-by-columns kind, then read off for each layer of the reference.
-/
import proofs.«146410_j38044820308123_2_alg».proof.Proof.RefStages
import proofs.«146410_j38044820308123_2_alg».proof.Proof.LibMatmul
import Idealize.ShloMosaic.Lib.Pipeline.Value

noncomputable section

open scoped BigOperators

namespace Cert.ReferenceIdeal.RefValue

open Idealize.ShloMosaic Idealize.ShloMosaic.ValueIdx Cert.Decoder

section Generic

variable {A K N : ℕ}

/-- A vector of N entries laid as one row and that row laid down A rows reads, at (n, q), entry q. -/
theorem bias_apply (h1 : (⟨1, ![N]⟩ : Shape).BroadcastsInDim ⟨2, ![1, N]⟩ ![1])
    (h2 : (⟨2, ![1, N]⟩ : Shape).BroadcastsInDim ⟨2, ![A, N]⟩ ![0, 1]) (b : FVec Ideal ⟨1, ![N]⟩ .f32)
    (n : Fin A) (q : Fin N) :
    broadcastInDim ⟨2, ![A, N]⟩ ![0, 1] h2 (broadcastInDim ⟨2, ![1, N]⟩ ![1] h1 b) (ix2 n q) = b (ix1 q) := by
  have e1 := broadcastInDim_apply ![0, 1] h2 (broadcastInDim ⟨2, ![1, N]⟩ ![1] h1 b) (ix2 n q) (ix2 (0 : Fin 1) q) (by
    intro a
    match a with
    | ⟨0, _⟩ => rfl
    | ⟨1, _⟩ =>
      show q.val = if N = 1 then 0 else q.val
      split
      · have := q.isLt; omega
      · rfl)
  have e2 := broadcastInDim_apply ![1] h1 b (ix2 (0 : Fin 1) q) (ix1 q) (by
    intro a
    match a with
    | ⟨0, _⟩ =>
      show q.val = if N = 1 then 0 else q.val
      split
      · have := q.isLt; omega
      · rfl)
  exact e1.trans e2

variable (d : DotDims ⟨2, ![A, K]⟩ ⟨2, ![K, N]⟩ ⟨2, ![A, N]⟩)

/-- The affine part of a layer at (n, q). -/
theorem affine_apply (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![A, N]⟩ ![0, 1])
    (x : FVec Ideal ⟨2, ![A, K]⟩ .f32) (W : FVec Ideal ⟨2, ![K, N]⟩ .f32) (b : FVec Ideal ⟨1, ![N]⟩ .f32)
    (n : Fin A) (q : Fin N) :
    addf (Host.dotGeneral d none x W)
        (broadcastInDim ⟨2, ![A, N]⟩ ![0, 1] h2 (broadcastInDim ⟨2, ![1, N]⟩ ![1] h1 b)) (ix2 n q)
      = affine W b (rowOf x n) q := by
  rw [addf_apply, bias_apply h1 h2 b n q]
  show FloatOps.dotGeneral d none .single x W (ix2 n q) + b (ix1 q) = _
  rw [dotGeneral_ix2 d hl hr hln hrn hlb hrb none .single x W n q]
  rfl

/-- A whole layer at (n, q): the positive part of the affine part. -/
theorem layer_apply (hl : d.lhsContracting = [1]) (hr : d.rhsContracting = [0]) (hln : d.lhsNonContracting = [0])
    (hrn : d.rhsNonContracting = [1]) (hlb : d.lhsBatch = []) (hrb : d.rhsBatch = [])
    (h1 : (⟨1, ![N]⟩ : Shape).BroadcastsInDim ⟨2, ![1, N]⟩ ![1])
    (h2 : (⟨2, ![1, N]⟩ : Shape).BroadcastsInDim ⟨2, ![A, N]⟩ ![0, 1])
    (h0 : (⟨0, ![]⟩ : Shape).BroadcastsInDim ⟨2, ![A, N]⟩ ![])
    (x : FVec Ideal ⟨2, ![A, K]⟩ .f32) (W : FVec Ideal ⟨2, ![K, N]⟩ .f32) (b : FVec Ideal ⟨1, ![N]⟩ .f32)
    (n : Fin A) (q : Fin N) :
    maximumf (addf (Host.dotGeneral d none x W)
        (broadcastInDim ⟨2, ![A, N]⟩ ![0, 1] h2 (broadcastInDim ⟨2, ![1, N]⟩ ![1] h1 b)))
      (broadcastInDim ⟨2, ![A, N]⟩ ![] h0 (constant (F := Ideal) ⟨0, ![]⟩ .f32 0x00000000#32)) (ix2 n q)
      = pos (affine W b (rowOf x n)) q := by
  rw [maximumf_apply, affine_apply d hl hr hln hrn hlb hrb h1 h2 x W b n q]
  rfl

end Generic

/-! ## The reference's layers, row by row -/

section Layers

open Cert.ReferenceIdeal Cert.ReferenceIdeal.Facts₀ Cert.ReferenceIdeal.Stages

/-- Row n of the first hidden layer is the specification's layer on row n of the input. -/
theorem h0_row (x : FVec Ideal S50000x256 .f32) (W : FVec Ideal S256x256 .f32) (b : FVec Ideal S256 .f32) (n : Fin 50000) :
    rowOf (h0 x W b) n = pos (affine W b (rowOf x n)) := by
  funext q
  exact layer_apply dot_S50000x256_S256x256_S50000x256_1_0_0_1_n_n rfl rfl rfl rfl rfl rfl _ _ _ x W b n q

/-- Row n of the second hidden layer. -/
theorem h1_row (x : FVec Ideal S50000x256 .f32) (W : FVec Ideal S256x128 .f32) (b : FVec Ideal S128 .f32) (n : Fin 50000) :
    rowOf (h1 x W b) n = pos (affine W b (rowOf x n)) := by
  funext q
  exact layer_apply dot_S50000x256_S256x128_S50000x128_1_0_0_1_n_n rfl rfl rfl rfl rfl rfl _ _ _ x W b n q

/-- Row n of the feature layer. -/
theorem feats_row (x : FVec Ideal S50000x128 .f32) (W : FVec Ideal S128x64 .f32) (b : FVec Ideal S64 .f32) (n : Fin 50000) :
    rowOf (feats x W b) n = pos (affine W b (rowOf x n)) := by
  funext q
  exact layer_apply dot_S50000x128_S128x64_S50000x64_1_0_0_1_n_n rfl rfl rfl rfl rfl rfl _ _ _ x W b n q

/-- Row n of the point-coordinate layer: affine only. -/
theorem rel_row (x : FVec Ideal S50000x64 .f32) (W : FVec Ideal S64x24 .f32) (b : FVec Ideal S24 .f32) (n : Fin 50000) :
    rowOf (rel x W b) n = affine W b (rowOf x n) := by
  funext q
  exact affine_apply dot_S50000x64_S64x24_S50000x24_1_0_0_1_n_n rfl rfl rfl rfl rfl rfl _ _ x W b n q

/-- Row r of the first point layer. -/
theorem p0_row (x : FVec Ideal S400000x323 .f32) (W : FVec Ideal S323x256 .f32) (b : FVec Ideal S256 .f32) (r : Fin 400000) :
    rowOf (p0 x W b) r = pos (affine W b (rowOf x r)) := by
  funext q
  exact layer_apply dot_S400000x323_S323x256_S400000x256_1_0_0_1_n_n rfl rfl rfl rfl rfl rfl _ _ _ x W b r q

/-- Row r of the second and third point layers. -/
theorem p12_row (x : FVec Ideal S400000x256 .f32) (W : FVec Ideal S256x256 .f32) (b : FVec Ideal S256 .f32) (r : Fin 400000) :
    rowOf (p12 x W b) r = pos (affine W b (rowOf x r)) := by
  funext q
  exact layer_apply dot_S400000x256_S256x256_S400000x256_1_0_0_1_n_n rfl rfl rfl rfl rfl rfl _ _ _ x W b r q

end Layers

end Cert.ReferenceIdeal.RefValue

end
-- ==== Proof.RefRelay.lean ====
/-
  The two re-layings of the reference read at coordinates. The point coordinates [50000, 24] re-laid row-major as
  [400000, 3]: row i, column j of the result is row i / 8, column 3 · (i mod 8) + j of the operand, because
  (i / 8) · 24 + 3 · (i mod 8) + j = 3 · i + j. The node numbers 0 … 49999 laid along a new axis of 8 and re-laid as
  one vector of 400000: entry r is r / 8, because (r / 8) · 8 + r mod 8 = r.
-/
import proofs.«146410_j38044820308123_2_alg».proof.Proof.RefStages
import Idealize.ShloMosaic.Lib.Pipeline.Value

noncomputable section

namespace Cert.ReferenceIdeal.RefValue

open Idealize.ShloMosaic Idealize.ShloMosaic.ValueIdx Cert.Decoder
open Cert.ReferenceIdeal Cert.ReferenceIdeal.Facts₀ Cert.ReferenceIdeal.Stages

/-- The re-laid point coordinates at (i, j). -/
theorem relPts_apply (r : FVec Ideal S50000x24 .f32) (i : Fin 400000) (j : Fin 3) :
    relPts r (ix2 i j)
      = r (ix2 (⟨i.val / 8, by have := i.isLt; omega⟩ : Fin 50000) (⟨3 * (i.val % 8) + j.val, by have := j.isLt; omega⟩ : Fin 24)) := by
  refine shapeCast_apply r _ _ _ ?_
  rw [Shape.rowMajor_val_two, Shape.rowMajor_val_two]
  show (i.val / 8) * 24 + (3 * (i.val % 8) + j.val) = i.val * 3 + j.val
  omega

/-- The node number of point r. -/
theorem clusterIdx_apply (r : Fin 400000) : clusterIdx (ix1 r) = BitVec.ofNat 32 (r.val / 8) := by
  have hn : r.val / 8 < 50000 := by have := r.isLt; omega
  have hk : r.val % 8 < 8 := Nat.mod_lt _ (by norm_num)
  have e1 := shapeCast_apply (broadcastInDim S50000x8 ![0] bcast_S50000_S50000x8_0 (iotaInDim S50000 32 0))
    shapeCasts_S50000x8_S400000 (ix1 r) (ix2 (⟨r.val / 8, hn⟩ : Fin 50000) (⟨r.val % 8, hk⟩ : Fin 8)) (by
      rw [Shape.rowMajor_val_two, Shape.rowMajor_val_one]
      show (r.val / 8) * 8 + r.val % 8 = r.val
      omega)
  have e2 := broadcastInDim_apply ![0] bcast_S50000_S50000x8_0 (iotaInDim S50000 32 0)
    (ix2 (⟨r.val / 8, hn⟩ : Fin 50000) (⟨r.val % 8, hk⟩ : Fin 8)) (ix1 (⟨r.val / 8, hn⟩ : Fin 50000)) (by
      intro a
      match a with
      | ⟨0, _⟩ =>
        show r.val / 8 = if (50000 : ℕ) = 1 then 0 else r.val / 8
        rw [if_neg (by norm_num)])
  exact e1.trans e2

/-- The node numbers are the specification's. -/
theorem clusterIdx_eq : clusterIdx = cluster := by
  funext i
  obtain ⟨r, rfl⟩ : ∃ r : Fin 400000, i = ix1 r := ⟨i 0, eq_ix1 i⟩
  exact clusterIdx_apply r

end Cert.ReferenceIdeal.RefValue

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.RefTake.lean ====
/-
  Taking rows at the node numbers, read at coordinates. The node number of point r is r / 8, a word that reads
  signed as the natural number r / 8 < 50000: it is not negative, so it is not moved up; it lies in 0 … 49999, so the
  range test holds at every row and the fill value is never chosen; and the row the gather reads, the row number
  clamped into 0 … 49999, is r / 8 itself. So row r of the taken matrix is row r / 8 of the source.
-/
import proofs.«146410_j38044820308123_2_alg».proof.Proof.RefRelay
import proofs.«146410_j38044820308123_2_alg».proof.Proof.LibRowIndex
import Idealize.ShloMosaic.Lib.ReduceAll

noncomputable section

namespace Cert.ReferenceIdeal.RefValue

open Idealize.ShloMosaic Idealize.ShloMosaic.ValueIdx Idealize.ShloMosaic.RowIndex Cert.Decoder
open Cert.ReferenceIdeal Cert.ReferenceIdeal.Facts₀ Cert.ReferenceIdeal.Stages

/-! ## Words -/

/-- A natural number below 2³¹ written as a 32-bit word reads signed as itself. -/
theorem toInt_ofNat_small (n : ℕ) (h : n < 2 ^ 31) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- A word that reads signed as a natural number is not moved up by the wrap. -/
theorem wrap_of_nonneg (c off : BitVec 32) (n : ℕ) (hc : c.toInt = (n : Int)) :
    Scalar.select (IntOp.cmpi .slt c 0#32) (IntOp.addi c off) c = c := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  exact select_zero _ _

/-- A left fold by `and` from 1 over words that are all 1 is 1. -/
theorem foldl_andi_one {ι : Type} (f : ι → BitVec 1) :
    ∀ (l : List ι), (∀ i ∈ l, f i = 1#1) → l.foldl (fun r n => IntOp.andi r (f n)) 1#1 = 1#1
  | [], _ => rfl
  | a :: l, h => by
    rw [List.foldl_cons, h a List.mem_cons_self, show IntOp.andi (1#1) (1#1) = 1#1 from by decide]
    exact foldl_andi_one f l (fun i hi => h i (List.mem_cons_of_mem _ hi))

/-! ## The wrapped column and the range test -/

/-- The wrapped column at row r. -/
theorem wrapped_apply (idx : IVec S400000 32) (r : Fin 400000) (u : Fin 1) :
    wrapped idx (ix2 r u)
      = Scalar.select (IntOp.cmpi .slt (idx (ix1 r)) 0#32) (IntOp.addi (idx (ix1 r)) 50000#32) (idx (ix1 r)) := by
  refine (broadcastInDim_apply ![0] bcast_S400000_S400000x1_0 _ (ix2 r u) (ix1 r) ?_).trans ?_
  · intro a
    match a with
    | ⟨0, _⟩ =>
      show r.val = if (400000 : ℕ) = 1 then 0 else r.val
      rw [if_neg (by norm_num)]
  · rfl

/-- The wrapped column of the node numbers at row r is r / 8. -/
theorem wrapped_cluster (r : Fin 400000) (u : Fin 1) : wrapped clusterIdx (ix2 r u) = BitVec.ofNat 32 (r.val / 8) := by
  have hr := r.isLt
  rw [wrapped_apply, clusterIdx_apply]
  exact wrap_of_nonneg _ _ (r.val / 8) (toInt_ofNat_small _ (by omega))

/-- The range test holds at every row. -/
theorem inRange_cluster (r : Fin 400000) : inRange (wrapped clusterIdx) (ix1 r) = 1#1 := by
  unfold inRange
  rw [Host.reduce_eq_foldl]
  refine foldl_andi_one _ _ (fun i _ => ?_)
  obtain ⟨p, u, rfl⟩ : ∃ (p : Fin 400000) (u : Fin 1), i = ix2 p u := ⟨i 0, i 1, eq_ix2 i⟩
  have hp := p.isLt
  show IntOp.andi (IntOp.cmpi .sge (wrapped clusterIdx (ix2 p u)) 0#32)
    (IntOp.cmpi .sle (wrapped clusterIdx (ix2 p u)) 49999#32) = 1#1
  rw [wrapped_cluster]
  refine IntOp.andi_eq_one.mpr ⟨IntOp.cmpi_sge.mpr ?_, IntOp.cmpi_sle.mpr ?_⟩
  · rw [toInt_ofNat_small (p.val / 8) (by omega), toInt_ofNat_small 0 (by norm_num)]
    omega
  · rw [toInt_ofNat_small (p.val / 8) (by omega), toInt_ofNat_small 49999 (by norm_num)]
    omega

end Cert.ReferenceIdeal.RefValue

end
-- ==== Proof.RefGather.lean ====
/-
  The rows taken at the node numbers, read at coordinates. Element (e, c) of a gather of whole rows reads the operand
  at the row whose number is row number e clamped into range, and at column c. With the node numbers as row numbers
  the range test holds everywhere, so the taken matrix is the gathered one, and its row r is row r / 8 of the source.
-/
import proofs.«146410_j38044820308123_2_alg».proof.Proof.RefTake

noncomputable section

namespace Cert.ReferenceIdeal.RefValue

open Idealize.ShloMosaic Idealize.ShloMosaic.ValueIdx Idealize.ShloMosaic.RowIndex Cert.Decoder
open Cert.ReferenceIdeal Cert.ReferenceIdeal.Facts₀ Cert.ReferenceIdeal.Stages

/-! ## A gather of whole rows at (e, c) -/

section Rows

variable (N D E : ℕ) {α : Type}

/-- Result element (e, c) reads operand column c. -/
theorem rows_operandIdx_col {w : ℕ}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (show (1 : Fin 2) ∉ ([0] : List (Fin 2)) from by decide)]
  have hk : (1 : Fin 2) ∈ (rowsDims N D E wf).sKept :=
    (GatherDims.mem_sKept _ _).mpr ⟨show (1 : Fin 2) ∉ ([0] : List (Fin 2)) from by decide, List.not_mem_nil⟩
  rw [hs]
  unfold GatherDims.offCoord
  rw [dif_pos hk]
  simp only [Nat.zero_add, Nat.add_zero]
  rfl

/-- The gather at (e, c), when the clamped row number of row e is n. -/
theorem gather_rows_apply {w : ℕ}
    (wf : GatherDims.WF ⟨2, ![N, D]⟩ ⟨2, ![E, 1]⟩ ⟨2, ![E, D]⟩ [1] [0] [] [0] [] 1 ![1, D])
    (src : (⟨2, ![N, D]⟩ : Shape).Idx → α) (idx : IVec ⟨2, ![E, 1]⟩ w) (e : Fin E) (c : Fin D) (n : Fin N)
    (hrow : min (idx (atRow e)).toInt.toNat (N - 1) = n.val) :
    Host.gather (rowsDims N D E wf) src idx (ix2 e c) = src (ix2 n c) := by
  unfold Host.gather
  congr 1
  funext a
  refine Fin.ext ?_
  match a with
  | ⟨0, _⟩ => exact (rows_operandIdx_row N D E wf idx (ix2 e c)).trans hrow
  | ⟨1, _⟩ => exact rows_operandIdx_col N D E wf idx (ix2 e c)

end Rows

/-! ## The rows of a matrix taken at the node numbers -/

/-- The clamped row number of row r of the wrapped node numbers is r / 8. -/
theorem clamp_cluster (r : Fin 400000) :
    min ((wrapped clusterIdx) (atRow r)).toInt.toNat (50000 - 1) = r.val / 8 := by
  have hr := r.isLt
  rw [wrapped_cluster, toInt_ofNat_small (r.val / 8) (by omega), Int.toNat_natCast]
  omega

/-- The range test laid along the columns holds everywhere. -/
theorem inRange64 (r : Fin 400000) (c : Fin 64) :
    broadcastInDim S400000x64 ![0] bcast_S400000_S400000x64_0 (inRange (wrapped clusterIdx)) (ix2 r c) = 1#1 := by
  have e1 := broadcastInDim_apply ![0] bcast_S400000_S400000x64_0 (inRange (wrapped clusterIdx)) (ix2 r c) (ix1 r) (by
    intro a
    match a with
    | ⟨0, _⟩ =>
      show r.val = if (400000 : ℕ) = 1 then 0 else r.val
      rw [if_neg (by norm_num)])
  exact e1.trans (inRange_cluster r)

/-- The range test laid along the columns holds everywhere. -/
theorem inRange256 (r : Fin 400000) (c : Fin 256) :
    broadcastInDim S400000x256 ![0] bcast_S400000_S400000x256_0 (inRange (wrapped clusterIdx)) (ix2 r c) = 1#1 := by
  have e1 := broadcastInDim_apply ![0] bcast_S400000_S400000x256_0 (inRange (wrapped clusterIdx)) (ix2 r c) (ix1 r) (by
    intro a
    match a with
    | ⟨0, _⟩ =>
      show r.val = if (400000 : ℕ) = 1 then 0 else r.val
      rw [if_neg (by norm_num)])
  exact e1.trans (inRange_cluster r)

/-- Row r of the features taken at the node numbers is row r / 8 of the features. -/
theorem take64_apply (src : FVec Ideal S50000x64 .f32) (r : Fin 400000) (c : Fin 64) :
    take64 src clusterIdx (ix2 r c) = src (ix2 (⟨r.val / 8, by have := r.isLt; omega⟩ : Fin 50000) c) := by
  unfold take64
  rw [select_apply, inRange64 r c, select_one]
  exact gather_rows_apply 50000 64 400000 _ src _ r c ⟨r.val / 8, by have := r.isLt; omega⟩ (clamp_cluster r)

/-- Row r of the input taken at the node numbers is row r / 8 of the input. -/
theorem take256_apply (src : FVec Ideal S50000x256 .f32) (r : Fin 400000) (c : Fin 256) :
    take256 src clusterIdx (ix2 r c) = src (ix2 (⟨r.val / 8, by have := r.isLt; omega⟩ : Fin 50000) c) := by
  unfold take256
  rw [select_apply, inRange256 r c, select_one]
  exact gather_rows_apply 50000 256 400000 _ src _ r c ⟨r.val / 8, by have := r.isLt; omega⟩ (clamp_cluster r)

end Cert.ReferenceIdeal.RefValue

end
-- ==== Proof.RefCat.lean ====
/-
  The three pieces laid side by side, read at coordinates. The concatenation along the columns of pieces of widths
  256, 64 and 3 reads the first piece at columns 0 … 255, the second at columns 256 … 319 (at the column less 256)
  and the third at columns 320 … 322 (at the column less 320), each at the same row.
-/
import proofs.«146410_j38044820308123_2_alg».proof.Proof.RefStages
import Idealize.ShloMosaic.Lib.Pipeline.Value

noncomputable section

namespace Cert.ReferenceIdeal.RefValue

open Idealize.ShloMosaic Idealize.ShloMosaic.ValueIdx Cert.Decoder
open Cert.ReferenceIdeal Cert.ReferenceIdeal.Facts₀ Cert.ReferenceIdeal.Stages

variable (a : FVec Ideal S400000x256 .f32) (f : FVec Ideal S400000x64 .f32) (r : FVec Ideal S400000x3 .f32)

/-- A column below 256 reads the first piece. -/
theorem catIn_apply_a (i : Fin 400000) (c : Fin 323) (h : c.val < 256) :
    catIn a f r (ix2 i c) = a (ix2 i (⟨c.val, h⟩ : Fin 256)) := by
  refine concatenate_apply_piece (t := S400000x323) (1 : Fin 2)
    [⟨S400000x256, a⟩, ⟨S400000x64, f⟩, ⟨S400000x3, r⟩] concatenates_S400000x256_S400000x64_S400000x3_S400000x323_d1 (ix2 i c) 0 ?_ S400000x256 a rfl rfl 0 rfl
    (ix2 i (⟨c.val, h⟩ : Fin 256)) ?_ ?_
  · show 0 < 3
    norm_num
  · intro b hb
    match b with
    | ⟨0, _⟩ => rfl
    | ⟨1, _⟩ => exact absurd rfl hb
  · show 0 + c.val = c.val
    omega

/-- A column from 256 to 319 reads the second piece, at the column less 256. -/
theorem catIn_apply_f (i : Fin 400000) (c : Fin 323) (h1 : 256 ≤ c.val) (h2 : c.val < 320) :
    catIn a f r (ix2 i c) = f (ix2 i (⟨c.val - 256, by omega⟩ : Fin 64)) := by
  refine concatenate_apply_piece (t := S400000x323) (1 : Fin 2)
    [⟨S400000x256, a⟩, ⟨S400000x64, f⟩, ⟨S400000x3, r⟩] concatenates_S400000x256_S400000x64_S400000x3_S400000x323_d1 (ix2 i c) 1 ?_ S400000x64 f rfl rfl 256 rfl
    (ix2 i (⟨c.val - 256, by omega⟩ : Fin 64)) ?_ ?_
  · show 1 < 3
    norm_num
  · intro b hb
    match b with
    | ⟨0, _⟩ => rfl
    | ⟨1, _⟩ => exact absurd rfl hb
  · show 256 + (c.val - 256) = c.val
    omega

/-- A column from 320 on reads the third piece, at the column less 320. -/
theorem catIn_apply_r (i : Fin 400000) (c : Fin 323) (h : 320 ≤ c.val) :
    catIn a f r (ix2 i c) = r (ix2 i (⟨c.val - 320, by have := c.isLt; omega⟩ : Fin 3)) := by
  refine concatenate_apply_piece (t := S400000x323) (1 : Fin 2)
    [⟨S400000x256, a⟩, ⟨S400000x64, f⟩, ⟨S400000x3, r⟩] concatenates_S400000x256_S400000x64_S400000x3_S400000x323_d1 (ix2 i c) 2 ?_ S400000x3 r rfl rfl 320 rfl
    (ix2 i (⟨c.val - 320, by have := c.isLt; omega⟩ : Fin 3)) ?_ ?_
  · show 2 < 3
    norm_num
  · intro b hb
    match b with
    | ⟨0, _⟩ => rfl
    | ⟨1, _⟩ => exact absurd rfl hb
  · show 320 + (c.val - 320) = c.val
    omega

end Cert.ReferenceIdeal.RefValue

end
-- ==== Proof.RefValue.lean ====
/-
  The reference's three results against the specification. Row by row: the feature layers on row n of the input give
  the specification's features of that row; the point coordinates re-laid give, at point r = 8 n + k and coordinate j,
  entry 3 k + j of the specification's 24 coordinates of node n = r / 8; the input row of point r — the node's row, its
  features and the point's three coordinates side by side — is the specification's input of point k = r mod 8 of node
  r / 8, column by column; and the three point layers on it give the specification's decoded row.
-/
import proofs.«146410_j38044820308123_2_alg».proof.Proof.RefLayers
import proofs.«146410_j38044820308123_2_alg».proof.Proof.RefGather
import proofs.«146410_j38044820308123_2_alg».proof.Proof.RefCat

noncomputable section

namespace Cert.ReferenceIdeal.RefValue

open Idealize.ShloMosaic Idealize.ShloMosaic.ValueIdx Cert.Decoder
open Cert.ReferenceIdeal Cert.ReferenceIdeal.Facts₀

variable (P : Params) (X : FVec Ideal S50000x256 .f32)

/-- Row n of the reference's features is the specification's features of row n of the input. -/
theorem featsOut_row (n : Fin 50000) : rowOf (Stages.featsOut P X) n = Decoder.feats P (rowOf X n) := by
  unfold Stages.featsOut
  rw [feats_row, h1_row, h0_row]
  rfl

/-- The reference's point coordinates at (r, j). -/
theorem relOut_apply (r : Fin 400000) (j : Fin 3) :
    Stages.relOut P X (ix2 r j)
      = Decoder.rel P (rowOf X (⟨r.val / 8, by have := r.isLt; omega⟩ : Fin 50000))
          (⟨3 * (r.val % 8) + j.val, by have := j.isLt; omega⟩ : Fin 24) := by
  unfold Stages.relOut
  rw [relPts_apply]
  show rowOf (Stages.rel (Stages.featsOut P X) P.Wdec P.bdec) _ _ = _
  rw [rel_row, featsOut_row]
  rfl

/-- The reference's first result is the specification's. -/
theorem relOut_eq : Stages.relOut P X = relPoints P X := by
  funext i
  obtain ⟨r, j, rfl⟩ : ∃ (r : Fin 400000) (j : Fin 3), i = ix2 r j := ⟨i 0, i 1, eq_ix2 i⟩
  exact relOut_apply P X r j

/-- The input row of point r is the specification's input of point r mod 8 of node r / 8. -/
theorem catIn_row (r : Fin 400000) :
    rowOf (Stages.catIn (Stages.take256 X Stages.clusterIdx) (Stages.take64 (Stages.featsOut P X) Stages.clusterIdx)
        (Stages.relOut P X)) r
      = pointIn P (rowOf X (⟨r.val / 8, by have := r.isLt; omega⟩ : Fin 50000))
          (⟨r.val % 8, Nat.mod_lt _ (by norm_num)⟩ : Fin 8) := by
  funext c
  show Stages.catIn _ _ _ (ix2 r c) = _
  unfold pointIn
  by_cases h : c.val < 256
  · rw [catIn_apply_a _ _ _ r c h, dif_pos h, take256_apply]
    rfl
  · rw [dif_neg h]
    by_cases h2 : c.val < 320
    · rw [catIn_apply_f _ _ _ r c (by omega) h2, dif_pos h2, take64_apply]
      show rowOf (Stages.featsOut P X) _ _ = _
      rw [featsOut_row]
    · rw [catIn_apply_r _ _ _ r c (by omega), dif_neg h2, relOut_apply]

/-- Row r of the reference's decoded rows. -/
theorem decOut_row (r : Fin 400000) :
    rowOf (Stages.decOut P X) r
      = decoded P (rowOf X (⟨r.val / 8, by have := r.isLt; omega⟩ : Fin 50000))
          (⟨r.val % 8, Nat.mod_lt _ (by norm_num)⟩ : Fin 8) := by
  unfold Stages.decOut
  rw [p12_row, p12_row, p0_row, catIn_row]
  rfl

/-- The reference's second result is the specification's. -/
theorem decOut_eq : Stages.decOut P X = decodedAll P X := by
  funext i
  obtain ⟨r, q, rfl⟩ : ∃ (r : Fin 400000) (q : Fin 256), i = ix2 r q := ⟨i 0, i 1, eq_ix2 i⟩
  exact congrFun (decOut_row P X r) q

end Cert.ReferenceIdeal.RefValue

end
-- ==== Proof.lean ====
/-
  The point decoder: a tiled kernel against a whole-array reference, equal on the extended reals.

  Both programs send every node's row x of 256 numbers through three affine layers with positive parts to 64
  features, through one more affine layer to 24 numbers (8 points of 3 coordinates), build for each point the row
  (x, features, the point's 3 coordinates) of 323 numbers and send it through three more affine layers with positive
  parts; they return the coordinates [400000, 3], the decoded rows [400000, 256] and each point's node number.
  The kernel does this 400 nodes at a time: it repeats a node's row and features for its eight points by a
  broadcast and cuts the coordinates by slices; the reference gathers the rows at the node numbers 0, 0, …, 49999,
  which are always in range, so its fill value is never taken. On the extended reals a rounding to a shorter format is
  the identity and a matrix product is the plain sum ∑ j, lhs (p, j) · rhs (j, q) on both sides, so both programs
  compute, index by index, the one function of the argument arrays stated in Spec.lean; no law beyond reading the same
  sums is needed, and the precondition is not used.

  The three frames: the kernels' are their generated frame runs; the reference's is its run with the results dropped.
  Nothing was rewritten between the printed kernel and its idealization, so that conjunct is trivial.
-/
import proofs.«146410_j38044820308123_2_alg».proof.Defs
import proofs.«146410_j38044820308123_2_alg».proof.Proof.Gen.Kernel
import proofs.«146410_j38044820308123_2_alg».proof.Proof.Gen.Kernel.Skeleton
import proofs.«146410_j38044820308123_2_alg».proof.Proof.Gen.Kernel.Launch
import proofs.«146410_j38044820308123_2_alg».proof.Proof.Gen.Kernel.Points
import proofs.«146410_j38044820308123_2_alg».proof.Proof.Gen.Kernel.Frame
import proofs.«146410_j38044820308123_2_alg».proof.Proof.Gen.KernelIdeal
import proofs.«146410_j38044820308123_2_alg».proof.Proof.Gen.KernelIdeal.Skeleton
import proofs.«146410_j38044820308123_2_alg».proof.Proof.Gen.KernelIdeal.Launch
import proofs.«146410_j38044820308123_2_alg».proof.Proof.Gen.KernelIdeal.Points
import proofs.«146410_j38044820308123_2_alg».proof.Proof.Gen.KernelIdeal.Frame
import proofs.«146410_j38044820308123_2_alg».proof.Proof.Gen.ReferenceIdeal
import proofs.«146410_j38044820308123_2_alg».proof.Proof.Gen.Pre_finite_inputs
import proofs.«146410_j38044820308123_2_alg».proof.Proof.KernelValue
import proofs.«146410_j38044820308123_2_alg».proof.Proof.RefFrame
import proofs.«146410_j38044820308123_2_alg».proof.Proof.RefValue
import Idealize.ShloMosaic.Adequacy
import Idealize.ShloMosaic.Init

noncomputable section

namespace Cert.Proof

open Idealize.ShloMosaic Idealize.SL.Sem

/-- The printed kernel runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the three results dropped. -/
theorem frame_ri : Cert.frame_ReferenceIdeal := Cert.ReferenceIdeal.RefRun.frame_ri

/-- Both programs write the node numbers by the same three operations; index r holds r / 8. -/
theorem nodes_eq : Cert.KernelIdeal.KValue.nodeNumbers = Cert.Decoder.cluster :=
  (rfl : Cert.KernelIdeal.KValue.nodeNumbers = Cert.ReferenceIdeal.Stages.clusterIdx).trans Cert.ReferenceIdeal.RefValue.clusterIdx_eq

/-- From memories that agree on the fifteen arguments both programs end with the specification's three arrays. -/
theorem algebraic : Cert.algebraic_KernelIdeal_ReferenceIdeal := by
  intro m ρ m' ρ' _ hagree
  refine ⟨fun c => Cert.Decoder.relPoints (Cert.KernelIdeal.KValue.params m c) (m ((c.tc : Thread Cert.KernelIdeal.nD Cert.KernelIdeal.τ).loc Cert.KernelIdeal.main_arg0)),
    fun c => Cert.Decoder.decodedAll (Cert.KernelIdeal.KValue.params m c) (m ((c.tc : Thread Cert.KernelIdeal.nD Cert.KernelIdeal.τ).loc Cert.KernelIdeal.main_arg0)),
    fun _ => Cert.Decoder.cluster, ?_, ?_⟩
  · exact (θ_run Cert.KernelIdeal.defs _ _).mono
      (fun r h c => ⟨(h c).1, (h c).2.1, (h c).2.2.1.trans nodes_eq, (h c).2.2.2⟩) (Cert.KernelIdeal.KValue.run m ρ)
  · refine (θ_run Cert.ReferenceIdeal.defs _ _).mono (fun r h c => ?_) (Cert.ReferenceIdeal.RefRun.run m' ρ')
    obtain ⟨a0, a1, a2, a3, a4, a5, a6, a7, a8, a9, a10, a11, a12, a13, a14⟩ := hagree c
    have hP : Cert.ReferenceIdeal.RefRun.params m' c = Cert.KernelIdeal.KValue.params m c := by
      unfold Cert.ReferenceIdeal.RefRun.params Cert.KernelIdeal.KValue.params
      rw [a1, a2, a3, a4, a5, a6, a7, a8, a9, a10, a11, a12, a13, a14]
    refine ⟨?_, ?_, ?_, (h c).2.2.2⟩
    · rw [(h c).1, Cert.ReferenceIdeal.RefValue.relOut_eq, hP, a0]
    · rw [(h c).2.1, Cert.ReferenceIdeal.RefValue.decOut_eq, hP, a0]
    · rw [(h c).2.2.1]
      exact Cert.ReferenceIdeal.RefValue.clusterIdx_eq

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
